-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024x1024 .f32) (main_arg5 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S2x2048x1024 : Shape := ⟨3, ![2, 2048, 1024]⟩
abbrev S1024x1024 : Shape := ⟨2, ![1024, 1024]⟩
abbrev S4096x1024 : Shape := ⟨2, ![4096, 1024]⟩
abbrev S1x4096x1024 : Shape := ⟨3, ![1, 4096, 1024]⟩
abbrev S3x4096x1024 : Shape := ⟨3, ![3, 4096, 1024]⟩
abbrev S1x1024x1024 : Shape := ⟨3, ![1, 1024, 1024]⟩
abbrev S3x1024x1024 : Shape := ⟨3, ![3, 1024, 1024]⟩
abbrev S1x512x1024 : Shape := ⟨3, ![1, 512, 1024]⟩
abbrev S512x1024 : Shape := ⟨2, ![512, 1024]⟩
abbrev S2x2048x16x64 : Shape := ⟨4, ![2, 2048, 16, 64]⟩
abbrev S2x16x2048x64 : Shape := ⟨4, ![2, 16, 2048, 64]⟩
abbrev S1x1x2048x64 : Shape := ⟨4, ![1, 1, 2048, 64]⟩
abbrev S2048x64 : Shape := ⟨2, ![2048, 64]⟩
abbrev S64x64 : Shape := ⟨2, ![64, 64]⟩

abbrev nBuf : Space → Nat
  | .hbm => 35
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1x4096x1024, .f32⟩
  | .hbm, ⟨10, _⟩ => ⟨S1x4096x1024, .f32⟩
  | .hbm, ⟨11, _⟩ => ⟨S1x4096x1024, .f32⟩
  | .hbm, ⟨12, _⟩ => ⟨S3x4096x1024, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S3x1024x1024, .f32⟩
  | .hbm, ⟨17, _⟩ => ⟨S3x4096x1024, .f32⟩
  | .hbm, ⟨18, _⟩ => ⟨S1x4096x1024, .f32⟩
  | .hbm, ⟨19, _⟩ => ⟨S4096x1024, .f32⟩
  | .hbm, ⟨20, _⟩ => ⟨S2x2048x16x64, .f32⟩
  | .hbm, ⟨21, _⟩ => ⟨S2x16x2048x64, .f32⟩
  | .hbm, ⟨22, _⟩ => ⟨S1x4096x1024, .f32⟩
  | .hbm, ⟨23, _⟩ => ⟨S4096x1024, .f32⟩
  | .hbm, ⟨24, _⟩ => ⟨S2x2048x16x64, .f32⟩
  | .hbm, ⟨25, _⟩ => ⟨S2x16x2048x64, .f32⟩
  | .hbm, ⟨26, _⟩ => ⟨S1x4096x1024, .f32⟩
  | .hbm, ⟨27, _⟩ => ⟨S4096x1024, .f32⟩
  | .hbm, ⟨28, _⟩ => ⟨S2x2048x16x64, .f32⟩
  | .hbm, ⟨29, _⟩ => ⟨S2x16x2048x64, .f32⟩
  | .hbm, ⟨30, _⟩ => ⟨S2x2048x16x64, .f32⟩
  | .hbm, ⟨31, _⟩ => ⟨S2x16x2048x64, .f32⟩
  | .hbm, ⟨32, _⟩ => ⟨S2x16x2048x64, .f32⟩
  | .hbm, ⟨33, _⟩ => ⟨S2x2048x16x64, .f32⟩
  | .hbm, ⟨34, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1x2048x64, .f32⟩
  | .local _ .vmem, ⟨7, _⟩ => ⟨S1x1x2048x64, .f32⟩
  | .local _ .vmem, ⟨8, _⟩ => ⟨S1x1x2048x64, .f32⟩
  | .local _ .vmem, ⟨9, _⟩ => ⟨S1x1x2048x64, .f32⟩
  | .local _ .vmem, ⟨10, _⟩ => ⟨S1x1x2048x64, .f32⟩
  | .local _ .vmem, ⟨11, _⟩ => ⟨S1x1x2048x64, .f32⟩
  | .local _ .vmem, ⟨12, _⟩ => ⟨S1x1x2048x64, .f32⟩
  | .local _ .vmem, ⟨13, _⟩ => ⟨S1x1x2048x64, .f32⟩
  | .local _ .vmem, ⟨14, _⟩ => ⟨S1x1x2048x64, .f32⟩
  | .local _ .vmem, ⟨15, _⟩ => ⟨S1x1x2048x64, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![3, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x2048x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S2x2048x1024_S4096x1024 : S2x2048x1024.ShapeCasts S4096x1024
  bcast_S4096x1024_S1x4096x1024_1_2 : S4096x1024.BroadcastsInDim S1x4096x1024 (![1, 2] : Fin 2 → Fin S1x4096x1024.rank)
  concatenates_S1x4096x1024_S1x4096x1024_S1x4096x1024_S3x4096x1024_d0 : Shape.Concatenates [S1x4096x1024, S1x4096x1024, S1x4096x1024] S3x4096x1024 0
  bcast_S1024x1024_S1x1024x1024_1_2 : S1024x1024.BroadcastsInDim S1x1024x1024 (![1, 2] : Fin 2 → Fin S1x1024x1024.rank)
  concatenates_S1x1024x1024_S1x1024x1024_S1x1024x1024_S3x1024x1024_d0 : Shape.Concatenates [S1x1024x1024, S1x1024x1024, S1x1024x1024] S3x1024x1024 0
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S512x1024_S1x512x1024 : S512x1024.ShapeCasts S1x512x1024
  slices_S3x4096x1024_S1x4096x1024_0_0_0 : S3x4096x1024.Slices ![0, 0, 0] S1x4096x1024
  shapeCasts_S1x4096x1024_S4096x1024 : S1x4096x1024.ShapeCasts S4096x1024
  shapeCasts_S4096x1024_S2x2048x16x64 : S4096x1024.ShapeCasts S2x2048x16x64
  transposes_S2x2048x16x64_S2x16x2048x64_0_2_1_3 : S2x2048x16x64.Transposes [0, 2, 1, 3] S2x16x2048x64
  slices_S3x4096x1024_S1x4096x1024_1_0_0 : S3x4096x1024.Slices ![1, 0, 0] S1x4096x1024
  slices_S3x4096x1024_S1x4096x1024_2_0_0 : S3x4096x1024.Slices ![2, 0, 0] S1x4096x1024
  shapeCasts_S2x2048x1024_S2x2048x16x64 : S2x2048x1024.ShapeCasts S2x2048x16x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  shapeCasts_S2048x64_S1x1x2048x64 : S2048x64.ShapeCasts S1x1x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S512x1024_S1024x1024_S512x1024_1_1_0_0_n_n_wf : DotDims.WF S512x1024 S1024x1024 S512x1024 [1] [1] [0] [0] [] []
  dot_S2048x64_S2048x64_S64x64_0_0_1_1_n_n_wf : DotDims.WF S2048x64 S2048x64 S64x64 [0] [0] [1] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S3x4096x1024.size a
  hwx0_0 : ∀ i : grid0.Coords, EltTy.bits .f32 = 32 ∨ (Rect.block (s := S3x4096x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S3x1024x1024.size a
  hwx0_1 : ∀ i : grid0.Coords, EltTy.bits .f32 = 32 ∨ (Rect.block (s := S3x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S3x4096x1024.size a
  hwx0_2 : ∀ i : grid0.Coords, EltTy.bits .f32 = 32 ∨ (Rect.block (s := S3x4096x1024) S1x512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x2048x64.size a ≤ S2x16x2048x64.size a
  hwx1_0 : ∀ i : grid1.Coords, EltTy.bits .f32 = 32 ∨ (Rect.block (s := S2x16x2048x64) S1x1x2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x16x2048x64.size a
  hwx1_1 : ∀ i : grid1.Coords, EltTy.bits .f32 = 32 ∨ (Rect.block (s := S2x16x2048x64) S1x1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x16x2048x64.size a
  hwx1_2 : ∀ i : grid1.Coords, EltTy.bits .f32 = 32 ∨ (Rect.block (s := S2x16x2048x64) S1x1x2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048x64.size a ≤ S2x16x2048x64.size a
  hwx1_3 : ∀ i : grid1.Coords, EltTy.bits .f32 = 32 ∨ (Rect.block (s := S2x16x2048x64) S1x1x2048x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x2048x64.size a ≤ S2x16x2048x64.size a
  hwx1_4 : ∀ i : grid1.Coords, EltTy.bits .f32 = 32 ∨ (Rect.block (s := S2x16x2048x64) S1x1x2048x64.size (cc1_transform_4 i) (hinb1_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_v6) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S1x1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x1x2048x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x1x2048x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x16x64, .f32⟩
  | .hbm, ⟨10, _⟩ => ⟨S2x16x2048x64, .f32⟩
  | .hbm, ⟨11, _⟩ => ⟨S2x2048x16x64, .f32⟩
  | .hbm, ⟨12, _⟩ => ⟨S2x16x2048x64, .f32⟩
  | .hbm, ⟨13, _⟩ => ⟨S2x2048x16x64, .f32⟩
  | .hbm, ⟨14, _⟩ => ⟨S2x16x2048x64, .f32⟩
  | .hbm, ⟨15, _⟩ => ⟨S2x16x2048x2048, .f32⟩
  | .hbm, ⟨16, _⟩ => ⟨S2x16x2048x64, .f32⟩
  | .hbm, ⟨17, _⟩ => ⟨S2x2048x16x64, .f32⟩
  | .hbm, ⟨18, _⟩ => ⟨S2x2048x1024, .f32⟩
  | .hbm, ⟨19, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KData.lean ====
/-
  The contents of every buffer along @main, as functions of the launch memory.

  @main is a stretch of host operations (the three inputs flattened to [4096, 1024] and stacked, the three weight
  matrices stacked), the projection region (grid 3 × 8: point (p, j) multiplies rows 512·j … 512·j + 511 of input p
  by the transpose of weight p), a second stretch (each projection cut out of the stack, split into 16 heads and the
  head axis moved in front of the row axis; the first input laid out the same way), the attention region (grid 2 × 16:
  point (b, h) works on batch b, head h), and a last stretch that moves the head axis back and merges it.

  Here: a window's block at a grid point read off its array; what each region's body leaves in its output window's
  staging buffer, as a function of the input blocks (its single whole-block store over the body's one pure term); the
  per-region data the pipeline library takes (arrays as found at entry, what each window's buffer holds after the body
  at each point); and the buffers' contents at the five boundaries between items, each a fold of the one before:
  a stretch's operations applied, or a region's arrays replaced by what its write-backs leave.
-/
import proofs.«182103_j40724879900854_1_alg».proof.Proof.Gen.Kernel.Launch
import proofs.«182103_j40724879900854_1_alg».proof.Proof.Gen.Kernel.Skeleton
import proofs.«182103_j40724879900854_1_alg».proof.Proof.Gen.Kernel.Points
import Idealize.ShloMosaic.Lib.Pipeline.FrameBody
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open Idealize.SL.Sem
open Idealize.ShloMosaic.Pipeline (Dat Cfg Window)

variable {F : FTy → Type} [FloatOps F]

section Regions
-- the TensorCore's buffer contents when a region is entered
variable (V : (c : Dev nD) → (b : Ref sig .tc) → Buf (Elt F) ((c : Thread nD τ).loc b))

/-! ## The projection region -/

/-- Window `w`'s block at point `t` of the projection grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole [1, 512, 1024] block, as the rectangle the body loads and stores through. -/
abbrev rX : Rect S1x512x1024 := Rect.unit (s := S1x512x1024) ![0, 0, 0] S1x512x1024.size inb_S1x512x1024_S1x512x1024_0_0_0
/-- The whole [1, 1024, 1024] weight block. -/
abbrev rW : Rect S1x1024x1024 := Rect.unit (s := S1x1024x1024) ![0, 0, 0] S1x1024x1024.size inb_S1x1024x1024_S1x1024x1024_0_0_0

/-- The output window's staging buffer after the projection body: one store of the whole block, the product of the
    row block with the transposed weight block. -/
def out0_2 (x0 : Vec F S1x512x1024 .f32) (x1 : Vec F S1x1024x1024 .f32) : Vec F S1x512x1024 .f32 :=
  View.canon [⟨rX, k0_pay1 (View.ld x0 rX) (View.ld x1 rW)⟩]

/-- The projection pipeline's data on core `c`: the arrays as found; after the body each input's buffer at its block
    and the output's at the product; the invariant the scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The attention region -/

/-- Window `w`'s block at point `t` of the attention grid, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole [1, 1, 2048, 64] block of one batch and head. -/
abbrev rH : Rect S1x1x2048x64 := Rect.unit (s := S1x1x2048x64) ![0, 0, 0, 0] S1x1x2048x64.size inb_S1x1x2048x64_S1x1x2048x64_0_0_0_0

/-- The output window's staging buffer after the attention body: one store of the whole block,
    `Q · (Kᵀ · V) + R` of the four input blocks. -/
def out1_4 (x0 x1 x2 x3 : Vec F S1x1x2048x64 .f32) : Vec F S1x1x2048x64 .f32 :=
  View.canon [⟨rH, k1_pay1 (View.ld x0 rH) (View.ld x1 rH) (View.ld x2 rH) (View.ld x3 rH)⟩]

/-- The attention pipeline's data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

end Regions

/-! ## The buffers' contents at the boundaries between @main's items -/

variable (m : (ℓ : Loc nD τ sig) → Buf (Elt F) ℓ)

/-- Core `c`'s buffers at launch. -/
abbrev W0 : Dev nD → Valuation τ sig (Elt F) := fun c b => m ((c : Dev nD), b)
/-- After the first host stretch (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last host stretch: what @main returns with. -/
abbrev W5 : Dev nD → Valuation τ sig (Elt F) := fun c => StableHlo.after hostOps2 (W4 m c)

end Cert.Kernel.Hand

end
-- ==== Proof.KRun.lean ====
/-
  @main's run, at any float instance: every weakly fair execution from a memory `m` with zero counters terminates
  without a fault, and every unscoped buffer of every core ends at the last boundary's contents `W5 m c`.

  Each region's body, on whole staging buffers holding its input blocks, loads them, computes its one pure term and
  stores it over the whole output block (it also loads the output buffer's old contents, which it never uses); so after
  the body the inputs' buffers are as they were and the output's holds that term. That is the body's triple; with it
  the pipeline's obligation holds at every grid point, whether or not a window was fetched there (an unfetched input's
  index has not moved). Each region is then a segment between two thread states "every unscoped buffer held whole at
  the boundary's contents, the generator register at some state, nothing owed": its arrays are split out of the
  unscoped buffers at entry and put back at exit holding what the write-backs leave. The host stretches run between
  them, and the launch theorem for a list of segments gives the run.
-/
import proofs.«182103_j40724879900854_1_alg».proof.Proof.KData
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The projection region -/

/-- An input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The one store covers the output block. -/
theorem cover0_2 (p0 : Vec F S1x512x1024 .f32) (y : S1x512x1024.Idx) :
    ∃ pc ∈ ([⟨rX, p0⟩] : List (View.Piece (Elt F) S1x512x1024 .f32)), y ∈ pc.1.set :=
  View.cover_of_tiled [⟨rX, p0⟩] S1x512x1024.size (by rfl) y

set_option maxHeartbeats 1000000 in
/-- The projection body's triple. -/
theorem sound_kernel0 (c : Dev nD) (E : Set ℕ) (i : grid0.Coords)
    (arg2 : Memref sig .tc .vmem S1x512x1024 .f32) (harg2 : arg2.IsWhole)
    (arg3 : Memref sig .tc .vmem S1x1024x1024 .f32) (harg3 : arg3.IsWhole)
    (arg4 : Memref sig .tc .vmem S1x512x1024 .f32) (harg4 : arg4.IsWhole)
    (x0 : Vec F S1x512x1024 .f32) (x1 : Vec F S1x1024x1024 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! ## The attention region -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem cover1_4 (p0 : Vec F S1x1x2048x64 .f32) (y : S1x1x2048x64.Idx) :
    ∃ pc ∈ ([⟨rH, p0⟩] : List (View.Piece (Elt F) S1x1x2048x64 .f32)), y ∈ pc.1.set :=
  View.cover_of_tiled [⟨rH, p0⟩] S1x1x2048x64.size (by rfl) y

set_option maxHeartbeats 1000000 in
/-- The attention body's triple. -/
theorem sound_kernel1 (c : Dev nD) (E : Set ℕ) (i : grid1.Coords)
    (arg2 : Memref sig .tc .vmem S1x1x2048x64 .f32) (harg2 : arg2.IsWhole)
    (arg3 : Memref sig .tc .vmem S1x1x2048x64 .f32) (harg3 : arg3.IsWhole)
    (arg4 : Memref sig .tc .vmem S1x1x2048x64 .f32) (harg4 : arg4.IsWhole)
    (arg5 : Memref sig .tc .vmem S1x1x2048x64 .f32) (harg5 : arg5.IsWhole)
    (arg6 : Memref sig .tc .vmem S1x1x2048x64 .f32) (harg6 : arg6.IsWhole)
    (x0 x1 x2 x3 : Vec F S1x1x2048x64 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 x0 x1 x2 x3)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Regions

/-! ## The run -/

variable (m : (ℓ : Loc nD τ sig) → Buf (Elt F) ℓ) (ρ : Dev nD → PrngReg)

abbrev adm : (p : Fin 2) → (pcfgs (F := F) p).Adm := fun p => (cfgs p).toPCfg_adm
/-- Every pipeline's data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W5 m c) ∗ ∃ r, prngReg c r)

set_option backward.isDefEq.respectTransparency.types false in
/-- The projection region between the thread states at `W1` and `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region between the thread states at `W3` and `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every unscoped buffer of every core ends at `W5 m c`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.KArgs.lean ====
/-
  The six argument arrays come out of the fold as they went in: no host operation writes one (each writes only its own
  result buffer), and neither region has one as a window's array (the regions read the stacked copies and the head
  layouts), so at an argument's buffer every boundary's contents are the launch memory's.
-/
import proofs.«182103_j40724879900854_1_alg».proof.Proof.KData
import proofs.«182103_j40724879900854_1_alg».proof.Proof.Gen.Kernel.Regions

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

/-- A buffer that no host stretch writes and that is no window's array of either region holds its launch contents at
    the last boundary. -/
theorem W5_untouched (c : Dev nD) (r : Ref sig .tc)
    (h0 : r ∉ hostOps0_W) (h1 : r ∉ hostOps1_W) (h2 : r ∉ hostOps2_W)
    (hw0 : ∀ w, Pipeline.arrRef spec0 w ≠ r) (hw1 : ∀ w, Pipeline.arrRef spec1 w ≠ r) :
    W5 m c (Proc.devRef .tc r) = m ((c : Thread nD τ).loc r) :=
  (StableHlo.after_of_writes_sub hostOps2 _ hostOps2_writes h2).trans <|
    (W4_of_ne m c r hw1).trans <|
    (StableHlo.after_of_writes_sub hostOps1 _ hostOps1_writes h1).trans <|
    (W2_of_ne m c r hw0).trans <|
    (StableHlo.after_of_writes_sub hostOps0 _ hostOps0_writes h0).trans rfl

theorem W5_main_arg0 (c : Dev nD) : W5 m c (Proc.devRef .tc main_arg0) = m ((c : Thread nD τ).loc main_arg0) :=
  W5_untouched m c main_arg0 (by decide) (by decide) (by decide) (by decide) (by decide)
theorem W5_main_arg1 (c : Dev nD) : W5 m c (Proc.devRef .tc main_arg1) = m ((c : Thread nD τ).loc main_arg1) :=
  W5_untouched m c main_arg1 (by decide) (by decide) (by decide) (by decide) (by decide)
theorem W5_main_arg2 (c : Dev nD) : W5 m c (Proc.devRef .tc main_arg2) = m ((c : Thread nD τ).loc main_arg2) :=
  W5_untouched m c main_arg2 (by decide) (by decide) (by decide) (by decide) (by decide)
theorem W5_main_arg3 (c : Dev nD) : W5 m c (Proc.devRef .tc main_arg3) = m ((c : Thread nD τ).loc main_arg3) :=
  W5_untouched m c main_arg3 (by decide) (by decide) (by decide) (by decide) (by decide)
theorem W5_main_arg4 (c : Dev nD) : W5 m c (Proc.devRef .tc main_arg4) = m ((c : Thread nD τ).loc main_arg4) :=
  W5_untouched m c main_arg4 (by decide) (by decide) (by decide) (by decide) (by decide)
theorem W5_main_arg5 (c : Dev nD) : W5 m c (Proc.devRef .tc main_arg5) = m ((c : Thread nD τ).loc main_arg5) :=
  W5_untouched m c main_arg5 (by decide) (by decide) (by decide) (by decide) (by decide)

end Cert.Kernel.Hand

end
-- ==== Proof.KIData.lean ====
/-
  The contents of every buffer along @main, as functions of the launch memory.

  @main is a stretch of host operations (the three inputs flattened to [4096, 1024] and stacked, the three weight
  matrices stacked), the projection region (grid 3 × 8: point (p, j) multiplies rows 512·j … 512·j + 511 of input p
  by the transpose of weight p), a second stretch (each projection cut out of the stack, split into 16 heads and the
  head axis moved in front of the row axis; the first input laid out the same way), the attention region (grid 2 × 16:
  point (b, h) works on batch b, head h), and a last stretch that moves the head axis back and merges it.

  Here: a window's block at a grid point read off its array; what each region's body leaves in its output window's
  staging buffer, as a function of the input blocks (its single whole-block store over the body's one pure term); the
  per-region data the pipeline library takes (arrays as found at entry, what each window's buffer holds after the body
  at each point); and the buffers' contents at the five boundaries between items, each a fold of the one before:
  a stretch's operations applied, or a region's arrays replaced by what its write-backs leave.
-/
import proofs.«182103_j40724879900854_1_alg».proof.Proof.Gen.KernelIdeal.Launch
import proofs.«182103_j40724879900854_1_alg».proof.Proof.Gen.KernelIdeal.Skeleton
import proofs.«182103_j40724879900854_1_alg».proof.Proof.Gen.KernelIdeal.Points
import Idealize.ShloMosaic.Lib.Pipeline.FrameBody
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open Idealize.SL.Sem
open Idealize.ShloMosaic.Pipeline (Dat Cfg Window)

variable {F : FTy → Type} [FloatOps F]

section Regions
-- the TensorCore's buffer contents when a region is entered
variable (V : (c : Dev nD) → (b : Ref sig .tc) → Buf (Elt F) ((c : Thread nD τ).loc b))

/-! ## The projection region -/

/-- Window `w`'s block at point `t` of the projection grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole [1, 512, 1024] block, as the rectangle the body loads and stores through. -/
abbrev rX : Rect S1x512x1024 := Rect.unit (s := S1x512x1024) ![0, 0, 0] S1x512x1024.size inb_S1x512x1024_S1x512x1024_0_0_0
/-- The whole [1, 1024, 1024] weight block. -/
abbrev rW : Rect S1x1024x1024 := Rect.unit (s := S1x1024x1024) ![0, 0, 0] S1x1024x1024.size inb_S1x1024x1024_S1x1024x1024_0_0_0

/-- The output window's staging buffer after the projection body: one store of the whole block, the product of the
    row block with the transposed weight block. -/
def out0_2 (x0 : Vec F S1x512x1024 .f32) (x1 : Vec F S1x1024x1024 .f32) : Vec F S1x512x1024 .f32 :=
  View.canon [⟨rX, k0_pay1 (View.ld x0 rX) (View.ld x1 rW)⟩]

/-- The projection pipeline's data on core `c`: the arrays as found; after the body each input's buffer at its block
    and the output's at the product; the invariant the scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The attention region -/

/-- Window `w`'s block at point `t` of the attention grid, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole [1, 1, 2048, 64] block of one batch and head. -/
abbrev rH : Rect S1x1x2048x64 := Rect.unit (s := S1x1x2048x64) ![0, 0, 0, 0] S1x1x2048x64.size inb_S1x1x2048x64_S1x1x2048x64_0_0_0_0

/-- The output window's staging buffer after the attention body: one store of the whole block,
    `Q · (Kᵀ · V) + R` of the four input blocks. -/
def out1_4 (x0 x1 x2 x3 : Vec F S1x1x2048x64 .f32) : Vec F S1x1x2048x64 .f32 :=
  View.canon [⟨rH, k1_pay1 (View.ld x0 rH) (View.ld x1 rH) (View.ld x2 rH) (View.ld x3 rH)⟩]

/-- The attention pipeline's data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

end Regions

/-! ## The buffers' contents at the boundaries between @main's items -/

variable (m : (ℓ : Loc nD τ sig) → Buf (Elt F) ℓ)

/-- Core `c`'s buffers at launch. -/
abbrev W0 : Dev nD → Valuation τ sig (Elt F) := fun c b => m ((c : Dev nD), b)
/-- After the first host stretch (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last host stretch: what @main returns with. -/
abbrev W5 : Dev nD → Valuation τ sig (Elt F) := fun c => StableHlo.after hostOps2 (W4 m c)

end Cert.KernelIdeal.Hand

end
-- ==== Proof.KIRun.lean ====
/-
  @main's run, at any float instance: every weakly fair execution from a memory `m` with zero counters terminates
  without a fault, and every unscoped buffer of every core ends at the last boundary's contents `W5 m c`.

  Each region's body, on whole staging buffers holding its input blocks, loads them, computes its one pure term and
  stores it over the whole output block (it also loads the output buffer's old contents, which it never uses); so after
  the body the inputs' buffers are as they were and the output's holds that term. That is the body's triple; with it
  the pipeline's obligation holds at every grid point, whether or not a window was fetched there (an unfetched input's
  index has not moved). Each region is then a segment between two thread states "every unscoped buffer held whole at
  the boundary's contents, the generator register at some state, nothing owed": its arrays are split out of the
  unscoped buffers at entry and put back at exit holding what the write-backs leave. The host stretches run between
  them, and the launch theorem for a list of segments gives the run.
-/
import proofs.«182103_j40724879900854_1_alg».proof.Proof.KIData
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The projection region -/

/-- An input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The one store covers the output block. -/
theorem cover0_2 (p0 : Vec F S1x512x1024 .f32) (y : S1x512x1024.Idx) :
    ∃ pc ∈ ([⟨rX, p0⟩] : List (View.Piece (Elt F) S1x512x1024 .f32)), y ∈ pc.1.set :=
  View.cover_of_tiled [⟨rX, p0⟩] S1x512x1024.size (by rfl) y

set_option maxHeartbeats 1000000 in
/-- The projection body's triple. -/
theorem sound_kernel0 (c : Dev nD) (E : Set ℕ) (i : grid0.Coords)
    (arg2 : Memref sig .tc .vmem S1x512x1024 .f32) (harg2 : arg2.IsWhole)
    (arg3 : Memref sig .tc .vmem S1x1024x1024 .f32) (harg3 : arg3.IsWhole)
    (arg4 : Memref sig .tc .vmem S1x512x1024 .f32) (harg4 : arg4.IsWhole)
    (x0 : Vec F S1x512x1024 .f32) (x1 : Vec F S1x1024x1024 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! ## The attention region -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem cover1_4 (p0 : Vec F S1x1x2048x64 .f32) (y : S1x1x2048x64.Idx) :
    ∃ pc ∈ ([⟨rH, p0⟩] : List (View.Piece (Elt F) S1x1x2048x64 .f32)), y ∈ pc.1.set :=
  View.cover_of_tiled [⟨rH, p0⟩] S1x1x2048x64.size (by rfl) y

set_option maxHeartbeats 1000000 in
/-- The attention body's triple. -/
theorem sound_kernel1 (c : Dev nD) (E : Set ℕ) (i : grid1.Coords)
    (arg2 : Memref sig .tc .vmem S1x1x2048x64 .f32) (harg2 : arg2.IsWhole)
    (arg3 : Memref sig .tc .vmem S1x1x2048x64 .f32) (harg3 : arg3.IsWhole)
    (arg4 : Memref sig .tc .vmem S1x1x2048x64 .f32) (harg4 : arg4.IsWhole)
    (arg5 : Memref sig .tc .vmem S1x1x2048x64 .f32) (harg5 : arg5.IsWhole)
    (arg6 : Memref sig .tc .vmem S1x1x2048x64 .f32) (harg6 : arg6.IsWhole)
    (x0 x1 x2 x3 : Vec F S1x1x2048x64 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 x0 x1 x2 x3)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Regions

/-! ## The run -/

variable (m : (ℓ : Loc nD τ sig) → Buf (Elt F) ℓ) (ρ : Dev nD → PrngReg)

abbrev adm : (p : Fin 2) → (pcfgs (F := F) p).Adm := fun p => (cfgs p).toPCfg_adm
/-- Every pipeline's data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W5 m c) ∗ ∃ r, prngReg c r)

set_option backward.isDefEq.respectTransparency.types false in
/-- The projection region between the thread states at `W1` and `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region between the thread states at `W3` and `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every unscoped buffer of every core ends at `W5 m c`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.KIArgs.lean ====
/-
  The six argument arrays come out of the fold as they went in: no host operation writes one (each writes only its own
  result buffer), and neither region has one as a window's array (the regions read the stacked copies and the head
  layouts), so at an argument's buffer every boundary's contents are the launch memory's.
-/
import proofs.«182103_j40724879900854_1_alg».proof.Proof.KIData
import proofs.«182103_j40724879900854_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- A buffer that no host stretch writes and that is no window's array of either region holds its launch contents at
    the last boundary. -/
theorem W5_untouched (c : Dev nD) (r : Ref sig .tc)
    (h0 : r ∉ hostOps0_W) (h1 : r ∉ hostOps1_W) (h2 : r ∉ hostOps2_W)
    (hw0 : ∀ w, Pipeline.arrRef spec0 w ≠ r) (hw1 : ∀ w, Pipeline.arrRef spec1 w ≠ r) :
    W5 m c (Proc.devRef .tc r) = m ((c : Thread nD τ).loc r) :=
  (StableHlo.after_of_writes_sub hostOps2 _ hostOps2_writes h2).trans <|
    (W4_of_ne m c r hw1).trans <|
    (StableHlo.after_of_writes_sub hostOps1 _ hostOps1_writes h1).trans <|
    (W2_of_ne m c r hw0).trans <|
    (StableHlo.after_of_writes_sub hostOps0 _ hostOps0_writes h0).trans rfl

theorem W5_main_arg0 (c : Dev nD) : W5 m c (Proc.devRef .tc main_arg0) = m ((c : Thread nD τ).loc main_arg0) :=
  W5_untouched m c main_arg0 (by decide) (by decide) (by decide) (by decide) (by decide)
theorem W5_main_arg1 (c : Dev nD) : W5 m c (Proc.devRef .tc main_arg1) = m ((c : Thread nD τ).loc main_arg1) :=
  W5_untouched m c main_arg1 (by decide) (by decide) (by decide) (by decide) (by decide)
theorem W5_main_arg2 (c : Dev nD) : W5 m c (Proc.devRef .tc main_arg2) = m ((c : Thread nD τ).loc main_arg2) :=
  W5_untouched m c main_arg2 (by decide) (by decide) (by decide) (by decide) (by decide)
theorem W5_main_arg3 (c : Dev nD) : W5 m c (Proc.devRef .tc main_arg3) = m ((c : Thread nD τ).loc main_arg3) :=
  W5_untouched m c main_arg3 (by decide) (by decide) (by decide) (by decide) (by decide)
theorem W5_main_arg4 (c : Dev nD) : W5 m c (Proc.devRef .tc main_arg4) = m ((c : Thread nD τ).loc main_arg4) :=
  W5_untouched m c main_arg4 (by decide) (by decide) (by decide) (by decide) (by decide)
theorem W5_main_arg5 (c : Dev nD) : W5 m c (Proc.devRef .tc main_arg5) = m ((c : Thread nD τ).loc main_arg5) :=
  W5_untouched m c main_arg5 (by decide) (by decide) (by decide) (by decide) (by decide)

end Cert.KernelIdeal.Hand

end
-- ==== Proof.Frames.lean ====
/-
  The three frame conjuncts: each program runs to the end, faults nowhere and leaves its six argument arrays as
  launched.

  For the kernel program — at the word-level instance and at the ideal one — this is the run with every unscoped buffer
  at the last boundary's contents, read at the six argument buffers, which the fold leaves untouched. For the reference,
  a host program with no kernel, it is its run with the result dropped.
-/
import proofs.«182103_j40724879900854_1_alg».proof.Defs
import proofs.«182103_j40724879900854_1_alg».proof.Proof.KRun
import proofs.«182103_j40724879900854_1_alg».proof.Proof.KArgs
import proofs.«182103_j40724879900854_1_alg».proof.Proof.KIRun
import proofs.«182103_j40724879900854_1_alg».proof.Proof.KIArgs
import proofs.«182103_j40724879900854_1_alg».proof.Proof.Gen.ReferenceIdeal.Run
import proofs.«182103_j40724879900854_1_alg».proof.Proof.Gen.Kernel
import proofs.«182103_j40724879900854_1_alg».proof.Proof.Gen.KernelIdeal
import proofs.«182103_j40724879900854_1_alg».proof.Proof.Gen.ReferenceIdeal
import proofs.«182103_j40724879900854_1_alg».proof.Proof.Gen.Pre_finite_inputs

noncomputable section

namespace Cert.Proof.Frames

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W5_main_arg0 m c),
     (h c _ (Cert.Kernel.Hand.mem_uc Cert.Kernel.main_arg1 (by decide))).trans (Cert.Kernel.Hand.W5_main_arg1 m c),
     (h c _ (Cert.Kernel.Hand.mem_uc Cert.Kernel.main_arg2 (by decide))).trans (Cert.Kernel.Hand.W5_main_arg2 m c),
     (h c _ (Cert.Kernel.Hand.mem_uc Cert.Kernel.main_arg3 (by decide))).trans (Cert.Kernel.Hand.W5_main_arg3 m c),
     (h c _ (Cert.Kernel.Hand.mem_uc Cert.Kernel.main_arg4 (by decide))).trans (Cert.Kernel.Hand.W5_main_arg4 m c),
     (h c _ (Cert.Kernel.Hand.mem_uc Cert.Kernel.main_arg5 (by decide))).trans (Cert.Kernel.Hand.W5_main_arg5 m c)⟩)
    (Cert.Kernel.Hand.run_main (F := Bits) m ρ)

theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W5_main_arg0 m c),
     (h c _ (Cert.KernelIdeal.Hand.mem_uc Cert.KernelIdeal.main_arg1 (by decide))).trans (Cert.KernelIdeal.Hand.W5_main_arg1 m c),
     (h c _ (Cert.KernelIdeal.Hand.mem_uc Cert.KernelIdeal.main_arg2 (by decide))).trans (Cert.KernelIdeal.Hand.W5_main_arg2 m c),
     (h c _ (Cert.KernelIdeal.Hand.mem_uc Cert.KernelIdeal.main_arg3 (by decide))).trans (Cert.KernelIdeal.Hand.W5_main_arg3 m c),
     (h c _ (Cert.KernelIdeal.Hand.mem_uc Cert.KernelIdeal.main_arg4 (by decide))).trans (Cert.KernelIdeal.Hand.W5_main_arg4 m c),
     (h c _ (Cert.KernelIdeal.Hand.mem_uc Cert.KernelIdeal.main_arg5 (by decide))).trans (Cert.KernelIdeal.Hand.W5_main_arg5 m c)⟩)
    (Cert.KernelIdeal.Hand.run_main (F := Ideal) m ρ)

theorem frame_ri : Cert.frame_ReferenceIdeal := fun m ρ _ =>
  (θ_run (Cert.ReferenceIdeal.defs (F := Ideal)) _ _).mono (fun _ h c => (h c).2)
    (Cert.ReferenceIdeal.Value.run (F := Ideal) m ρ)

end Cert.Proof.Frames

end
-- ==== Proof.Spec.lean ====
/-
  The mathematics both programs compute, stated once over the argument arrays as functions of an index into the
  extended reals.

  Each of the three inputs x : [2, 2048, 1024] is projected by its weight matrix w : [1024, 1024],
      proj x w b s n = Σ_k x[b, s, k] · w[n, k]          (y = x · wᵀ),
  the 1024 columns are read as 16 heads of 64 lanes (column h·64 + d), and per batch b and head h the result is
      Q · (Kᵀ · V) + x₁     — entry (s, e):  Σ_d Q[s, d] · (Σ_t K[t, d] · V[t, e]) + x₁[b, s, h·64 + e]   (`attnK`)
  in the one program and
      (Q · Kᵀ) · V + x₁     — entry (s, e):  Σ_t (Σ_d Q[s, d] · K[t, d]) · V[t, e] + x₁[b, s, h·64 + e]   (`attnR`)
  in the other, where Q, K, V are the head's 2048 × 64 slices of the three projections. On real entries the two are
  one number: a product of three matrices may be bracketed either way.
-/
import Idealize.ShloMosaic.PureOps.Ideal
import Idealize.ShloMosaic.Lib.ValueIdx

noncomputable section

namespace Cert.Spec

open Idealize.ShloMosaic Idealize.ShloMosaic.ValueIdx
open scoped BigOperators

/-- The shape of the three inputs and of the result, [2, 2048, 1024]. -/
abbrev SX : Shape := ⟨3, ![2, 2048, 1024]⟩
/-- The shape of a weight matrix, [1024, 1024]. -/
abbrev SW : Shape := ⟨2, ![1024, 1024]⟩

/-- Column `h · 64 + d`: lane `d` of head `h`. -/
def col (h : Fin 16) (d : Fin 64) : Fin 1024 := ⟨h.val * 64 + d.val, by omega⟩
/-- The head a column belongs to. -/
def hd (n : Fin 1024) : Fin 16 := ⟨n.val / 64, by omega⟩
/-- A column's lane within its head. -/
def ln (n : Fin 1024) : Fin 64 := ⟨n.val % 64, Nat.mod_lt _ (by decide)⟩

theorem col_hd_ln (n : Fin 1024) : col (hd n) (ln n) = n :=
  Fin.ext (by simp only [col, hd, ln]; omega)

/-- The linear projection `x · wᵀ` at entry `(b, s, n)`: the sum over `k` of `x[b, s, k] · w[n, k]`. -/
def proj (x : SX.Idx → EReal) (w : SW.Idx → EReal) (b : Fin 2) (s : Fin 2048) (n : Fin 1024) : EReal :=
  ∑ k : Fin 1024, x (ix3 b s k) * w (ix2 n k)

/-- `Q · (Kᵀ · V) + x₁` at batch `b`, row `s`, head `h`, lane `e`. -/
def attnK (x1 x2 x3 : SX.Idx → EReal) (w1 w2 w3 : SW.Idx → EReal) (b : Fin 2) (s : Fin 2048) (h : Fin 16) (e : Fin 64) : EReal :=
  (∑ d : Fin 64, proj x1 w1 b s (col h d) * ∑ t : Fin 2048, proj x2 w2 b t (col h d) * proj x3 w3 b t (col h e))
    + x1 (ix3 b s (col h e))

/-- `(Q · Kᵀ) · V + x₁` at batch `b`, row `s`, head `h`, lane `e`. -/
def attnR (x1 x2 x3 : SX.Idx → EReal) (w1 w2 w3 : SW.Idx → EReal) (b : Fin 2) (s : Fin 2048) (h : Fin 16) (e : Fin 64) : EReal :=
  (∑ t : Fin 2048, (∑ d : Fin 64, proj x1 w1 b s (col h d) * proj x2 w2 b t (col h d)) * proj x3 w3 b t (col h e))
    + x1 (ix3 b s (col h e))

/-- A function of `(b, s, h, e)` laid out as the [2, 2048, 1024] result: entry `(b, s, n)` is the value at head
    `n / 64`, lane `n % 64`. -/
def lay (g : Fin 2 → Fin 2048 → Fin 16 → Fin 64 → EReal) : SX.Idx → EReal :=
  fun i => g (i 0) (i 1) (hd (i 2)) (ln (i 2))

end Cert.Spec

end
-- ==== Proof.KVMid.lean ====
/-
  The second host stretch, read at an index.

  Projection p is cut out of the stack [3, 4096, 1024], flattened to [4096, 1024], its rows split back into
  (batch, row) and its 1024 columns into (head, lane), and the head axis moved in front of the row axis: entry
  (b, h, s, d) of the result is entry (p, b·2048 + s, h·64 + d) of the stack. The first input goes through the same
  split and move directly: entry (b, h, s, d) is its entry (b, s, h·64 + d). These four arrays are what the attention
  region finds. Neither host stretch before it nor the projection region writes the first input's buffer.
-/
import proofs.«182103_j40724879900854_1_alg».proof.Proof.KIData
import proofs.«182103_j40724879900854_1_alg».proof.Proof.Spec
import proofs.«182103_j40724879900854_1_alg».proof.Proof.Gen.KernelIdeal.Regions
import Idealize.ShloMosaic.Lib.ValueIdx
import Idealize.ShloMosaic.Lib.Pipeline.Value
import Idealize.ShloMosaic.Lib.StableHlo.Run

noncomputable section

namespace Cert.KernelIdeal.HandMid

open Cert.KernelIdeal Cert.KernelIdeal.Gen Cert.KernelIdeal.Hand
open Idealize.ShloMosaic Idealize.ShloMosaic.TcCoe Idealize.ShloMosaic.ValueIdx
open Idealize.SL Idealize.SL.Sem

/-- Row `b · 2048 + s` of the flattened [4096, 1024] layout. -/
def row (b : Fin 2) (s : Fin 2048) : Fin 4096 := ⟨b.val * 2048 + s.val, by omega⟩

/-- Splitting the columns into heads and moving the head axis forward, read at `(b, h, s, d)`. -/
theorem heads_apply (y : S4096x1024.Idx → EReal) (b : Fin 2) (h : Fin 16) (s : Fin 2048) (d : Fin 64) :
    transpose S2x16x2048x64 [0, 2, 1, 3] (shapeCast S2x2048x16x64 y Facts₀.shapeCasts_S4096x1024_S2x2048x16x64)
        Facts₀.transposes_S2x2048x16x64_S2x16x2048x64_0_2_1_3 (ix4 b h s d)
      = y (ix2 (row b s) (Cert.Spec.col h d)) := by
  generalize hz : shapeCast S2x2048x16x64 y Facts₀.shapeCasts_S4096x1024_S2x2048x16x64 = z
  refine (transpose_apply [0, 2, 1, 3] z Facts₀.transposes_S2x2048x16x64_S2x16x2048x64_0_2_1_3 (ix4 b h s d) (ix4 b s h d)
    (fun a => match a with
      | ⟨0, _⟩ => rfl
      | ⟨1, _⟩ => rfl
      | ⟨2, _⟩ => rfl
      | ⟨3, _⟩ => rfl)).trans ?_
  subst hz
  exact shapeCast_apply y Facts₀.shapeCasts_S4096x1024_S2x2048x16x64 (ix4 b s h d) (ix2 (row b s) (Cert.Spec.col h d))
    (by rw [Shape.rowMajor_val_two, Shape.rowMajor_val_four]
        show (b.val * 2048 + s.val) * 1024 + (h.val * 64 + d.val) = ((b.val * 2048 + s.val) * 16 + h.val) * 64 + d.val
        omega)

/-- Member `p` of the stack, flattened, read at `(r, n)`. -/
theorem member_apply (Y : S3x4096x1024.Idx → EReal) (off : Fin S3x4096x1024.rank → Nat) (hs : S3x4096x1024.Slices off S1x4096x1024)
    (p : Fin 3) (h0 : off 0 = p.val) (h1 : off 1 = 0) (h2 : off 2 = 0) (r : Fin 4096) (n : Fin 1024) :
    shapeCast S4096x1024 (extractStridedSlice S1x4096x1024 off Y hs) Facts₀.shapeCasts_S1x4096x1024_S4096x1024 (ix2 r n)
      = Y (ix3 p r n) := by
  generalize hz : extractStridedSlice S1x4096x1024 off Y hs = z
  refine (shapeCast_apply z Facts₀.shapeCasts_S1x4096x1024_S4096x1024 (ix2 r n) (ix3 (0 : Fin 1) r n)
    (by rw [Shape.rowMajor_val_three, Shape.rowMajor_val_two]
        show (0 * 4096 + r.val) * 1024 + n.val = r.val * 1024 + n.val
        omega)).trans ?_
  subst hz
  exact extractStridedSlice_apply off Y hs (ix3 (0 : Fin 1) r n) (ix3 p r n)
    (fun a => match a with
      | ⟨0, _⟩ => by show p.val = off 0 + 0; omega
      | ⟨1, _⟩ => by show r.val = off 1 + r.val; omega
      | ⟨2, _⟩ => by show n.val = off 2 + n.val; omega)

/-- The first input split into heads directly, read at `(b, h, s, d)`. -/
theorem heads3_apply (x : S2x2048x1024.Idx → EReal) (b : Fin 2) (h : Fin 16) (s : Fin 2048) (d : Fin 64) :
    transpose S2x16x2048x64 [0, 2, 1, 3] (shapeCast S2x2048x16x64 x Facts₀.shapeCasts_S2x2048x1024_S2x2048x16x64)
        Facts₀.transposes_S2x2048x16x64_S2x16x2048x64_0_2_1_3 (ix4 b h s d)
      = x (ix3 b s (Cert.Spec.col h d)) := by
  generalize hz : shapeCast S2x2048x16x64 x Facts₀.shapeCasts_S2x2048x1024_S2x2048x16x64 = z
  refine (transpose_apply [0, 2, 1, 3] z Facts₀.transposes_S2x2048x16x64_S2x16x2048x64_0_2_1_3 (ix4 b h s d) (ix4 b s h d)
    (fun a => match a with
      | ⟨0, _⟩ => rfl
      | ⟨1, _⟩ => rfl
      | ⟨2, _⟩ => rfl
      | ⟨3, _⟩ => rfl)).trans ?_
  subst hz
  exact shapeCast_apply x Facts₀.shapeCasts_S2x2048x1024_S2x2048x16x64 (ix4 b s h d) (ix3 b s (Cert.Spec.col h d))
    (by rw [Shape.rowMajor_val_three, Shape.rowMajor_val_four]
        show (b.val * 2048 + s.val) * 1024 + (h.val * 64 + d.val) = ((b.val * 2048 + s.val) * 16 + h.val) * 64 + d.val
        omega)

variable (m : (ℓ : Loc nD τ sig) → Buf (Elt Ideal) ℓ)

/-- The first input's buffer is as launched when the attention region's host stretch reads it. -/
theorem W2_main_arg0 (c : Dev nD) : W2 (F := Ideal) m c (Proc.devRef .tc main_arg0) = m ((c : Thread nD τ).loc main_arg0) :=
  (W2_of_ne m c main_arg0 (by decide)).trans <|
    (StableHlo.after_of_writes_sub hostOps0 _ hostOps0_writes (by decide)).trans rfl

/-- The four arrays the attention region finds, as the second stretch's operations of the projection stack and of the
    first input. -/
theorem V3_main_v15 (c : Dev nD) : (W3 (F := Ideal) m c (Proc.devRef .tc main_v15) : S2x16x2048x64.Idx → EReal)
    = transpose S2x16x2048x64 [0, 2, 1, 3] (shapeCast S2x2048x16x64 (shapeCast S4096x1024
        (extractStridedSlice S1x4096x1024 ![0, 0, 0] (W2 m c (Proc.devRef .tc main_v11)) Facts₀.slices_S3x4096x1024_S1x4096x1024_0_0_0)
        Facts₀.shapeCasts_S1x4096x1024_S4096x1024) Facts₀.shapeCasts_S4096x1024_S2x2048x16x64) Facts₀.transposes_S2x2048x16x64_S2x16x2048x64_0_2_1_3 := by
  show StableHlo.after hostOps1 (W2 m c) (Proc.devRef .tc main_v15) = _
  after_results; rfl
theorem V3_main_v19 (c : Dev nD) : (W3 (F := Ideal) m c (Proc.devRef .tc main_v19) : S2x16x2048x64.Idx → EReal)
    = transpose S2x16x2048x64 [0, 2, 1, 3] (shapeCast S2x2048x16x64 (shapeCast S4096x1024
        (extractStridedSlice S1x4096x1024 ![1, 0, 0] (W2 m c (Proc.devRef .tc main_v11)) Facts₀.slices_S3x4096x1024_S1x4096x1024_1_0_0)
        Facts₀.shapeCasts_S1x4096x1024_S4096x1024) Facts₀.shapeCasts_S4096x1024_S2x2048x16x64) Facts₀.transposes_S2x2048x16x64_S2x16x2048x64_0_2_1_3 := by
  show StableHlo.after hostOps1 (W2 m c) (Proc.devRef .tc main_v19) = _
  after_results; rfl
theorem V3_main_v23 (c : Dev nD) : (W3 (F := Ideal) m c (Proc.devRef .tc main_v23) : S2x16x2048x64.Idx → EReal)
    = transpose S2x16x2048x64 [0, 2, 1, 3] (shapeCast S2x2048x16x64 (shapeCast S4096x1024
        (extractStridedSlice S1x4096x1024 ![2, 0, 0] (W2 m c (Proc.devRef .tc main_v11)) Facts₀.slices_S3x4096x1024_S1x4096x1024_2_0_0)
        Facts₀.shapeCasts_S1x4096x1024_S4096x1024) Facts₀.shapeCasts_S4096x1024_S2x2048x16x64) Facts₀.transposes_S2x2048x16x64_S2x16x2048x64_0_2_1_3 := by
  show StableHlo.after hostOps1 (W2 m c) (Proc.devRef .tc main_v23) = _
  after_results; rfl
theorem V3_main_v25 (c : Dev nD) : (W3 (F := Ideal) m c (Proc.devRef .tc main_v25) : S2x16x2048x64.Idx → EReal)
    = transpose S2x16x2048x64 [0, 2, 1, 3] (shapeCast S2x2048x16x64 (W2 m c (Proc.devRef .tc main_arg0))
        Facts₀.shapeCasts_S2x2048x1024_S2x2048x16x64) Facts₀.transposes_S2x2048x16x64_S2x16x2048x64_0_2_1_3 := by
  show StableHlo.after hostOps1 (W2 m c) (Proc.devRef .tc main_v25) = _
  after_results; rfl

/-- THE ENTRY ARRAYS AT AN INDEX, given the projection stack at an index (`P p` the p-th projection). -/
theorem entry_of_stack (c : Dev nD) (P : Fin 3 → Fin 2 → Fin 2048 → Fin 1024 → EReal)
    (hP : ∀ (p : Fin 3) (b : Fin 2) (s : Fin 2048) (n : Fin 1024),
      (W2 (F := Ideal) m c (Proc.devRef .tc main_v11) : S3x4096x1024.Idx → EReal) (ix3 p (row b s) n) = P p b s n)
    (b : Fin 2) (h : Fin 16) (s : Fin 2048) (d : Fin 64) :
    (V3 (F := Ideal) m c main_v15 : S2x16x2048x64.Idx → EReal) (ix4 b h s d) = P 0 b s (Cert.Spec.col h d)
    ∧ (V3 (F := Ideal) m c main_v19 : S2x16x2048x64.Idx → EReal) (ix4 b h s d) = P 1 b s (Cert.Spec.col h d)
    ∧ (V3 (F := Ideal) m c main_v23 : S2x16x2048x64.Idx → EReal) (ix4 b h s d) = P 2 b s (Cert.Spec.col h d)
    ∧ (V3 (F := Ideal) m c main_v25 : S2x16x2048x64.Idx → EReal) (ix4 b h s d)
        = (m ((c : Thread nD τ).loc main_arg0) : S2x2048x1024.Idx → EReal) (ix3 b s (Cert.Spec.col h d)) := by
  refine ⟨?_, ?_, ?_, ?_⟩
  · show (W3 (F := Ideal) m c (Proc.devRef .tc main_v15) : S2x16x2048x64.Idx → EReal) (ix4 b h s d) = _
    rw [V3_main_v15]
    generalize (W2 (F := Ideal) m c (Proc.devRef .tc main_v11) : S3x4096x1024.Idx → EReal) = Y at hP ⊢
    rw [heads_apply]
    exact (member_apply Y ![0, 0, 0] Facts₀.slices_S3x4096x1024_S1x4096x1024_0_0_0 0 rfl rfl rfl (row b s) _).trans (hP 0 b s _)
  · show (W3 (F := Ideal) m c (Proc.devRef .tc main_v19) : S2x16x2048x64.Idx → EReal) (ix4 b h s d) = _
    rw [V3_main_v19]
    generalize (W2 (F := Ideal) m c (Proc.devRef .tc main_v11) : S3x4096x1024.Idx → EReal) = Y at hP ⊢
    rw [heads_apply]
    exact (member_apply Y ![1, 0, 0] Facts₀.slices_S3x4096x1024_S1x4096x1024_1_0_0 1 rfl rfl rfl (row b s) _).trans (hP 1 b s _)
  · show (W3 (F := Ideal) m c (Proc.devRef .tc main_v23) : S2x16x2048x64.Idx → EReal) (ix4 b h s d) = _
    rw [V3_main_v23]
    generalize (W2 (F := Ideal) m c (Proc.devRef .tc main_v11) : S3x4096x1024.Idx → EReal) = Y at hP ⊢
    rw [heads_apply]
    exact (member_apply Y ![2, 0, 0] Facts₀.slices_S3x4096x1024_S1x4096x1024_2_0_0 2 rfl rfl rfl (row b s) _).trans (hP 2 b s _)
  · show (W3 (F := Ideal) m c (Proc.devRef .tc main_v25) : S2x16x2048x64.Idx → EReal) (ix4 b h s d) = _
    rw [V3_main_v25, W2_main_arg0]
    exact heads3_apply _ b h s d

end Cert.KernelIdeal.HandMid

end
-- ==== Proof.KVPay.lean ====
/-
  The two kernel bodies' arithmetic, read at an index.

  Each body stores ONE value over its whole output block. The projection body's is, at row r and column n of the
  block, the sum over k of x[0, r, k] · w[0, n, k]: the row block times the TRANSPOSE of the weight block. The attention
  body's is, at row s and lane e, the sum over d of q[s, d] · (the sum over t of k[t, d] · v[t, e]), plus r[s, e]: the
  bracketing Q · (Kᵀ · V) + R. Both are stated over arbitrary blocks; the leading unit axes of a block are written 0.
-/
import proofs.«182103_j40724879900854_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandValue

open Cert.KernelIdeal Cert.KernelIdeal.Gen
open Idealize.ShloMosaic Idealize.ShloMosaic.ValueIdx
open scoped BigOperators

/-! ## The three matrix products

Each product's operand indices at an output index and a contraction position, axis by axis; then the product read at an
output index as the sum over the contracted coordinate. -/

theorem mulRowsRows_lhsN (j : S512x1024.Idx) (q : dot_S512x1024_S1024x1024_S512x1024_1_1_0_0_n_n.contr.Idx) :
    (dot_S512x1024_S1024x1024_S512x1024_1_1_0_0_n_n.lhsIdx j q 0).val = (j 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem mulRowsRows_lhsC (j : S512x1024.Idx) (q : dot_S512x1024_S1024x1024_S512x1024_1_1_0_0_n_n.contr.Idx) :
    (dot_S512x1024_S1024x1024_S512x1024_1_1_0_0_n_n.lhsIdx j q 1).val = (q ⟨0, by decide⟩).val :=
  dot_S512x1024_S1024x1024_S512x1024_1_1_0_0_n_n.lhsIdx_val_of_single rfl j q
theorem mulRowsRows_rhsN (j : S512x1024.Idx) (q : dot_S512x1024_S1024x1024_S512x1024_1_1_0_0_n_n.contr.Idx) :
    (dot_S512x1024_S1024x1024_S512x1024_1_1_0_0_n_n.rhsIdx j q 0).val = (j 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem mulRowsRows_rhsC (j : S512x1024.Idx) (q : dot_S512x1024_S1024x1024_S512x1024_1_1_0_0_n_n.contr.Idx) :
    (dot_S512x1024_S1024x1024_S512x1024_1_1_0_0_n_n.rhsIdx j q 1).val = (q ⟨0, by decide⟩).val :=
  dot_S512x1024_S1024x1024_S512x1024_1_1_0_0_n_n.rhsIdx_val_of_single rfl j q

/-- Rows times rows: entry (r, n) of the [512, 1024] × [1024, 1024] product contracting both second axes. -/
theorem mulRowsRows_apply (A : FVec Ideal S512x1024 .bf16) (B : FVec Ideal S1024x1024 .bf16) (r : Fin 512) (n : Fin 1024) :
    matmul dot_S512x1024_S1024x1024_S512x1024_1_1_0_0_n_n none A B (constant (F := Ideal) S512x1024 .f32 0x00000000#32) (ix2 r n)
      = ∑ k : Fin 1024, A (ix2 r k) * B (ix2 n k) := by
  show FloatOps.matmul dot_S512x1024_S1024x1024_S512x1024_1_1_0_0_n_n none A B (constant (F := Ideal) S512x1024 .f32 0x00000000#32) (ix2 r n) = _
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r n) ((contrEquiv1 dot_S512x1024_S1024x1024_S512x1024_1_1_0_0_n_n 1024 rfl rfl).symm k) = ix2 r k :=
    funext fun a => Fin.ext (by
      match a with
      | ⟨0, _⟩ => exact mulRowsRows_lhsN _ _
      | ⟨1, _⟩ => exact (mulRowsRows_lhsC _ _).trans hk)
  have er : dot_S512x1024_S1024x1024_S512x1024_1_1_0_0_n_n.rhsIdx (ix2 r n) ((contrEquiv1 dot_S512x1024_S1024x1024_S512x1024_1_1_0_0_n_n 1024 rfl rfl).symm k) = ix2 n k :=
    funext fun a => Fin.ext (by
      match a with
      | ⟨0, _⟩ => exact mulRowsRows_rhsN _ _
      | ⟨1, _⟩ => exact (mulRowsRows_rhsC _ _).trans hk)
  rw [el, er]

theorem mulColsCols_lhsN (j : S64x64.Idx) (q : dot_S2048x64_S2048x64_S64x64_0_0_1_1_n_n.contr.Idx) :
    (dot_S2048x64_S2048x64_S64x64_0_0_1_1_n_n.lhsIdx j q 1).val = (j 0).val := by
  unfold DotDims.lhsIdx
  rw [dif_neg (show ¬(1 : Fin S2048x64.rank) ∈ dot_S2048x64_S2048x64_S64x64_0_0_1_1_n_n.lhsBatch by decide), dif_pos (show (1 : Fin S2048x64.rank) ∈ dot_S2048x64_S2048x64_S64x64_0_0_1_1_n_n.lhsNonContracting by decide)]
  rfl
theorem mulColsCols_lhsC (j : S64x64.Idx) (q : dot_S2048x64_S2048x64_S64x64_0_0_1_1_n_n.contr.Idx) :
    (dot_S2048x64_S2048x64_S64x64_0_0_1_1_n_n.lhsIdx j q 0).val = (q ⟨0, by decide⟩).val :=
  dot_S2048x64_S2048x64_S64x64_0_0_1_1_n_n.lhsIdx_val_of_single rfl j q
theorem mulColsCols_rhsN (j : S64x64.Idx) (q : dot_S2048x64_S2048x64_S64x64_0_0_1_1_n_n.contr.Idx) :
    (dot_S2048x64_S2048x64_S64x64_0_0_1_1_n_n.rhsIdx j q 1).val = (j 1).val := by
  unfold DotDims.rhsIdx
  rw [dif_neg (show ¬(1 : Fin S2048x64.rank) ∈ dot_S2048x64_S2048x64_S64x64_0_0_1_1_n_n.rhsBatch by decide), dif_pos (show (1 : Fin S2048x64.rank) ∈ dot_S2048x64_S2048x64_S64x64_0_0_1_1_n_n.rhsNonContracting by decide)]
  rfl
theorem mulColsCols_rhsC (j : S64x64.Idx) (q : dot_S2048x64_S2048x64_S64x64_0_0_1_1_n_n.contr.Idx) :
    (dot_S2048x64_S2048x64_S64x64_0_0_1_1_n_n.rhsIdx j q 0).val = (q ⟨0, by decide⟩).val :=
  dot_S2048x64_S2048x64_S64x64_0_0_1_1_n_n.rhsIdx_val_of_single rfl j q

/-- Columns times columns: entry (d, e) of the [2048, 64] × [2048, 64] product contracting both first axes. -/
theorem mulColsCols_apply (A : FVec Ideal S2048x64 .bf16) (B : FVec Ideal S2048x64 .bf16) (d : Fin 64) (e : Fin 64) :
    matmul dot_S2048x64_S2048x64_S64x64_0_0_1_1_n_n none A B (constant (F := Ideal) S64x64 .f32 0x00000000#32) (ix2 d e)
      = ∑ t : Fin 2048, A (ix2 t d) * B (ix2 t e) := by
  show FloatOps.matmul dot_S2048x64_S2048x64_S64x64_0_0_1_1_n_n none A B (constant (F := Ideal) S64x64 .f32 0x00000000#32) (ix2 d e) = _
  rw [Ideal.matmul_constant_zero_apply, ← Equiv.sum_comp (contrEquiv1 dot_S2048x64_S2048x64_S64x64_0_0_1_1_n_n 2048 rfl rfl).symm]
  refine Finset.sum_congr rfl fun t _ => ?_
  have hk := contrEquiv1_symm_val dot_S2048x64_S2048x64_S64x64_0_0_1_1_n_n 2048 rfl rfl t
  have el : dot_S2048x64_S2048x64_S64x64_0_0_1_1_n_n.lhsIdx (ix2 d e) ((contrEquiv1 dot_S2048x64_S2048x64_S64x64_0_0_1_1_n_n 2048 rfl rfl).symm t) = ix2 t d :=
    funext fun a => Fin.ext (by
      match a with
      | ⟨1, _⟩ => exact mulColsCols_lhsN _ _
      | ⟨0, _⟩ => exact (mulColsCols_lhsC _ _).trans hk)
  have er : dot_S2048x64_S2048x64_S64x64_0_0_1_1_n_n.rhsIdx (ix2 d e) ((contrEquiv1 dot_S2048x64_S2048x64_S64x64_0_0_1_1_n_n 2048 rfl rfl).symm t) = ix2 t e :=
    funext fun a => Fin.ext (by
      match a with
      | ⟨1, _⟩ => exact mulColsCols_rhsN _ _
      | ⟨0, _⟩ => exact (mulColsCols_rhsC _ _).trans hk)
  rw [el, er]

theorem mulRowsCols_lhsN (j : S2048x64.Idx) (q : dot_S2048x64_S64x64_S2048x64_1_0_0_1_n_n.contr.Idx) :
    (dot_S2048x64_S64x64_S2048x64_1_0_0_1_n_n.lhsIdx j q 0).val = (j 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem mulRowsCols_lhsC (j : S2048x64.Idx) (q : dot_S2048x64_S64x64_S2048x64_1_0_0_1_n_n.contr.Idx) :
    (dot_S2048x64_S64x64_S2048x64_1_0_0_1_n_n.lhsIdx j q 1).val = (q ⟨0, by decide⟩).val :=
  dot_S2048x64_S64x64_S2048x64_1_0_0_1_n_n.lhsIdx_val_of_single rfl j q
theorem mulRowsCols_rhsN (j : S2048x64.Idx) (q : dot_S2048x64_S64x64_S2048x64_1_0_0_1_n_n.contr.Idx) :
    (dot_S2048x64_S64x64_S2048x64_1_0_0_1_n_n.rhsIdx j q 1).val = (j 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl
theorem mulRowsCols_rhsC (j : S2048x64.Idx) (q : dot_S2048x64_S64x64_S2048x64_1_0_0_1_n_n.contr.Idx) :
    (dot_S2048x64_S64x64_S2048x64_1_0_0_1_n_n.rhsIdx j q 0).val = (q ⟨0, by decide⟩).val :=
  dot_S2048x64_S64x64_S2048x64_1_0_0_1_n_n.rhsIdx_val_of_single rfl j q

/-- Rows times columns: entry (s, e) of the plain [2048, 64] × [64, 64] product. -/
theorem mulRowsCols_apply (A : FVec Ideal S2048x64 .bf16) (B : FVec Ideal S64x64 .bf16) (s : Fin 2048) (e : Fin 64) :
    matmul dot_S2048x64_S64x64_S2048x64_1_0_0_1_n_n none A B (constant (F := Ideal) S2048x64 .f32 0x00000000#32) (ix2 s e)
      = ∑ d : Fin 64, A (ix2 s d) * B (ix2 d e) := by
  show FloatOps.matmul dot_S2048x64_S64x64_S2048x64_1_0_0_1_n_n none A B (constant (F := Ideal) S2048x64 .f32 0x00000000#32) (ix2 s e) = _
  rw [Ideal.matmul_constant_zero_apply, ← Equiv.sum_comp (contrEquiv1 dot_S2048x64_S64x64_S2048x64_1_0_0_1_n_n 64 rfl rfl).symm]
  refine Finset.sum_congr rfl fun d _ => ?_
  have hk := contrEquiv1_symm_val dot_S2048x64_S64x64_S2048x64_1_0_0_1_n_n 64 rfl rfl d
  have el : dot_S2048x64_S64x64_S2048x64_1_0_0_1_n_n.lhsIdx (ix2 s e) ((contrEquiv1 dot_S2048x64_S64x64_S2048x64_1_0_0_1_n_n 64 rfl rfl).symm d) = ix2 s d :=
    funext fun a => Fin.ext (by
      match a with
      | ⟨0, _⟩ => exact mulRowsCols_lhsN _ _
      | ⟨1, _⟩ => exact (mulRowsCols_lhsC _ _).trans hk)
  have er : dot_S2048x64_S64x64_S2048x64_1_0_0_1_n_n.rhsIdx (ix2 s e) ((contrEquiv1 dot_S2048x64_S64x64_S2048x64_1_0_0_1_n_n 64 rfl rfl).symm d) = ix2 d e :=
    funext fun a => Fin.ext (by
      match a with
      | ⟨1, _⟩ => exact mulRowsCols_rhsN _ _
      | ⟨0, _⟩ => exact (mulRowsCols_rhsC _ _).trans hk)
  rw [el, er]

/-! ## A [1, 1, a, b] block viewed [a, b] and back -/

section Casts
variable {α : Type}

/-- A [1, 1, a, b] block cast to [a, b] reads, at (i, j), the block at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] matrix cast to [1, 1, a, b] reads, at (u, v, i, j), the matrix at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

end Casts

/-! ## The bodies' stored values -/

/-- The projection body's value at row `r`, column `n` of its block: row `r` of the input block against row `n` of the
    weight block. -/
theorem projBody_apply (x : Vec Ideal S1x512x1024 .f32) (w : Vec Ideal S1x1024x1024 .f32) (u : Fin 1) (r : Fin 512) (n : Fin 1024) :
    k0_pay1 x w (ix3 u r n) = ∑ k : Fin 1024, x (ix3 (0 : Fin 1) r k) * w (ix3 (0 : Fin 1) n k) := by
  unfold k0_pay1
  refine (shapeCast_ab_1ab_apply _ _ u r n).trans ?_
  refine (mulRowsRows_apply _ _ r n).trans ?_
  refine Finset.sum_congr rfl fun k _ => ?_
  rw [truncf_apply, truncf_apply, shapeCast_1ab_ab_apply, shapeCast_1ab_ab_apply]

/-- The attention body's value at row `s`, lane `e` of its block: Q · (Kᵀ · V) + R there. -/
theorem attnBody_apply (q k v r : Vec Ideal S1x1x2048x64 .f32) (u u' : Fin 1) (s : Fin 2048) (e : Fin 64) :
    k1_pay1 q k v r (ix4 u u' s e)
      = (∑ d : Fin 64, q (ix4 (0 : Fin 1) (0 : Fin 1) s d)
            * ∑ t : Fin 2048, k (ix4 (0 : Fin 1) (0 : Fin 1) t d) * v (ix4 (0 : Fin 1) (0 : Fin 1) t e))
          + r (ix4 (0 : Fin 1) (0 : Fin 1) s e) := by
  unfold k1_pay1
  refine (shapeCast_ab_11ab_apply _ _ u u' s e).trans ?_
  rw [addf_apply, shapeCast_11ab_ab_apply]
  refine congrArg (· + r (ix4 (0 : Fin 1) (0 : Fin 1) s e)) ?_
  refine (mulRowsCols_apply _ _ s e).trans ?_
  refine Finset.sum_congr rfl fun d _ => ?_
  rw [truncf_apply, truncf_apply, shapeCast_11ab_ab_apply]
  refine congrArg (q (ix4 (0 : Fin 1) (0 : Fin 1) s d) * ·) ?_
  refine (mulColsCols_apply _ _ d e).trans ?_
  refine Finset.sum_congr rfl fun t _ => ?_
  rw [truncf_apply, truncf_apply, shapeCast_11ab_ab_apply, shapeCast_11ab_ab_apply]

end Cert.KernelIdeal.HandValue

end
-- ==== Proof.KVHost0.lean ====
/-
  The two arrays the projection region is entered with, read at an index.

  Before the region each input [2, 2048, 1024] is flattened to [4096, 1024] (row b · 2048 + s is row s of batch b),
  given a leading axis of extent one, and the three are laid one after another along that axis: slab p of the
  [3, 4096, 1024] array is input p. The three weight matrices are stacked the same way into [3, 1024, 1024].
-/
import proofs.«182103_j40724879900854_1_alg».proof.Proof.KIData
import Idealize.ShloMosaic.Lib.ValueIdx
import Idealize.ShloMosaic.Lib.Pipeline.Value
import Idealize.ShloMosaic.Lib.StableHlo.Run

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.StableHlo

/-- Each host operation's result at its own buffer is its function's value, and at any other buffer what was there. -/
macro "results_at" : tactic =>
  `(tactic| (repeat (first
               | rw [unary_result] | rw [reshape_result] | rw [nary_result]
               | (rw [unary_result_ne]; rotate_left; decide)
               | (rw [reshape_result_ne]; rotate_left; decide)
               | (rw [nary_result_ne]; rotate_left; decide))))

/-- [2, 2048, 1024] flattened to [4096, 1024]. -/
abbrev flat (x : S2x2048x1024.Idx → EReal) : S4096x1024.Idx → EReal :=
  shapeCast S4096x1024 x shapeCasts_S2x2048x1024_S4096x1024
/-- A [4096, 1024] matrix as a [1, 4096, 1024] slab. -/
abbrev leadX (x : S4096x1024.Idx → EReal) : S1x4096x1024.Idx → EReal :=
  broadcastInDim S1x4096x1024 ![1, 2] bcast_S4096x1024_S1x4096x1024_1_2 x
/-- A [1024, 1024] matrix as a [1, 1024, 1024] slab. -/
abbrev leadW (x : S1024x1024.Idx → EReal) : S1x1024x1024.Idx → EReal :=
  broadcastInDim S1x1024x1024 ![1, 2] bcast_S1024x1024_S1x1024x1024_1_2 x

/-- The slab of a flattened input at row b · 2048 + s is the input at (b, s). -/
theorem leadFlat_apply (x : S2x2048x1024.Idx → EReal) (u : Fin 1) (b : Fin 2) (s : Fin 2048) (k : Fin 1024) :
    leadX (flat x) (ix3 u (⟨b.val * 2048 + s.val, by omega⟩ : Fin 4096) k) = x (ix3 b s k) := by
  refine (broadcastInDim_apply _ _ _ _ (ix2 (⟨b.val * 2048 + s.val, by omega⟩ : Fin 4096) k) fun a => ?_).trans ?_
  · match a with
    | ⟨0, _⟩ => rfl
    | ⟨1, _⟩ => rfl
  · exact shapeCast_apply x _ _ (ix3 b s k) (by
      rw [Shape.rowMajor_val_three, Shape.rowMajor_val_two]
      rfl)

/-- The slab of a weight matrix at (n, k) is the matrix there. -/
theorem leadW_apply (x : S1024x1024.Idx → EReal) (u : Fin 1) (n k : Fin 1024) :
    leadW x (ix3 u n k) = x (ix2 n k) := by
  refine broadcastInDim_apply _ _ _ _ (ix2 n k) fun a => ?_
  match a with
  | ⟨0, _⟩ => rfl
  | ⟨1, _⟩ => rfl

variable (m : (ℓ : Loc nD τ sig) → Buf (Elt Ideal) ℓ) (c : Dev nD)

/-- The stacked inputs as the region finds them: the three flattened inputs' slabs, one after another. -/
theorem stackX_eq : (V1 m c main_v6 : S3x4096x1024.Idx → EReal)
    = concatenate S3x4096x1024 0 [⟨S1x4096x1024, leadX (flat (m ((c : Thread nD τ).loc main_arg0)))⟩, ⟨S1x4096x1024, leadX (flat (m ((c : Thread nD τ).loc main_arg1)))⟩, ⟨S1x4096x1024, leadX (flat (m ((c : Thread nD τ).loc main_arg2)))⟩] concatenates_S1x4096x1024_S1x4096x1024_S1x4096x1024_S3x4096x1024_d0 := by
  show StableHlo.after hostOps0 (W0 m c) (Proc.devRef .tc main_v6) = _
  after_results
  show concatenate S3x4096x1024 0 [⟨S1x4096x1024, (_ : Valuation τ sig (Elt Ideal)) (Proc.devRef .tc main_v3)⟩, ⟨S1x4096x1024, (_ : Valuation τ sig (Elt Ideal)) (Proc.devRef .tc main_v4)⟩, ⟨S1x4096x1024, (_ : Valuation τ sig (Elt Ideal)) (Proc.devRef .tc main_v5)⟩] _ = _
  results_at
  rfl

/-- The stacked weights as the region finds them. -/
theorem stackW_eq : (V1 m c main_v10 : S3x1024x1024.Idx → EReal)
    = concatenate S3x1024x1024 0 [⟨S1x1024x1024, leadW (m ((c : Thread nD τ).loc main_arg3))⟩, ⟨S1x1024x1024, leadW (m ((c : Thread nD τ).loc main_arg4))⟩, ⟨S1x1024x1024, leadW (m ((c : Thread nD τ).loc main_arg5))⟩] concatenates_S1x1024x1024_S1x1024x1024_S1x1024x1024_S3x1024x1024_d0 := by
  show StableHlo.after hostOps0 (W0 m c) (Proc.devRef .tc main_v10) = _
  after_results
  show concatenate S3x1024x1024 0 [⟨S1x1024x1024, (_ : Valuation τ sig (Elt Ideal)) (Proc.devRef .tc main_v7)⟩, ⟨S1x1024x1024, (_ : Valuation τ sig (Elt Ideal)) (Proc.devRef .tc main_v8)⟩, ⟨S1x1024x1024, (_ : Valuation τ sig (Elt Ideal)) (Proc.devRef .tc main_v9)⟩] _ = _
  results_at

/-- Slab 0 of the stacked inputs is input 0: row b · 2048 + s of the slab is row s of batch b. -/
theorem stackX0_apply (b : Fin 2) (s : Fin 2048) (k : Fin 1024) :
    (V1 m c main_v6 : S3x4096x1024.Idx → EReal) (ix3 (0 : Fin 3) (⟨b.val * 2048 + s.val, by omega⟩ : Fin 4096) k)
      = ((m ((c : Thread nD τ).loc main_arg0)) : S2x2048x1024.Idx → EReal) (ix3 b s k) := by
  rw [stackX_eq]
  refine (concatenate_apply_piece (t := S3x4096x1024) 0
    [⟨S1x4096x1024, leadX (flat (m ((c : Thread nD τ).loc main_arg0)))⟩, ⟨S1x4096x1024, leadX (flat (m ((c : Thread nD τ).loc main_arg1)))⟩, ⟨S1x4096x1024, leadX (flat (m ((c : Thread nD τ).loc main_arg2)))⟩]
    concatenates_S1x4096x1024_S1x4096x1024_S1x4096x1024_S3x4096x1024_d0
    (ix3 (0 : Fin 3) (⟨b.val * 2048 + s.val, by omega⟩ : Fin 4096) k) 0 (by show (0 : ℕ) < 3; omega)
    S1x4096x1024 (leadX (flat (m ((c : Thread nD τ).loc main_arg0)))) rfl rfl 0 rfl (ix3 (0 : Fin 1) (⟨b.val * 2048 + s.val, by omega⟩ : Fin 4096) k) (fun a ha => ?_) rfl).trans
      (leadFlat_apply _ (0 : Fin 1) b s k)
  match a, ha with
  | ⟨0, _⟩, ha => exact absurd rfl ha
  | ⟨1, _⟩, _ => rfl
  | ⟨2, _⟩, _ => rfl

/-- Slab 1 of the stacked inputs is input 1: row b · 2048 + s of the slab is row s of batch b. -/
theorem stackX1_apply (b : Fin 2) (s : Fin 2048) (k : Fin 1024) :
    (V1 m c main_v6 : S3x4096x1024.Idx → EReal) (ix3 (1 : Fin 3) (⟨b.val * 2048 + s.val, by omega⟩ : Fin 4096) k)
      = ((m ((c : Thread nD τ).loc main_arg1)) : S2x2048x1024.Idx → EReal) (ix3 b s k) := by
  rw [stackX_eq]
  refine (concatenate_apply_piece (t := S3x4096x1024) 0
    [⟨S1x4096x1024, leadX (flat (m ((c : Thread nD τ).loc main_arg0)))⟩, ⟨S1x4096x1024, leadX (flat (m ((c : Thread nD τ).loc main_arg1)))⟩, ⟨S1x4096x1024, leadX (flat (m ((c : Thread nD τ).loc main_arg2)))⟩]
    concatenates_S1x4096x1024_S1x4096x1024_S1x4096x1024_S3x4096x1024_d0
    (ix3 (1 : Fin 3) (⟨b.val * 2048 + s.val, by omega⟩ : Fin 4096) k) 1 (by show (1 : ℕ) < 3; omega)
    S1x4096x1024 (leadX (flat (m ((c : Thread nD τ).loc main_arg1)))) rfl rfl 1 rfl (ix3 (0 : Fin 1) (⟨b.val * 2048 + s.val, by omega⟩ : Fin 4096) k) (fun a ha => ?_) rfl).trans
      (leadFlat_apply _ (0 : Fin 1) b s k)
  match a, ha with
  | ⟨0, _⟩, ha => exact absurd rfl ha
  | ⟨1, _⟩, _ => rfl
  | ⟨2, _⟩, _ => rfl

/-- Slab 2 of the stacked inputs is input 2: row b · 2048 + s of the slab is row s of batch b. -/
theorem stackX2_apply (b : Fin 2) (s : Fin 2048) (k : Fin 1024) :
    (V1 m c main_v6 : S3x4096x1024.Idx → EReal) (ix3 (2 : Fin 3) (⟨b.val * 2048 + s.val, by omega⟩ : Fin 4096) k)
      = ((m ((c : Thread nD τ).loc main_arg2)) : S2x2048x1024.Idx → EReal) (ix3 b s k) := by
  rw [stackX_eq]
  refine (concatenate_apply_piece (t := S3x4096x1024) 0
    [⟨S1x4096x1024, leadX (flat (m ((c : Thread nD τ).loc main_arg0)))⟩, ⟨S1x4096x1024, leadX (flat (m ((c : Thread nD τ).loc main_arg1)))⟩, ⟨S1x4096x1024, leadX (flat (m ((c : Thread nD τ).loc main_arg2)))⟩]
    concatenates_S1x4096x1024_S1x4096x1024_S1x4096x1024_S3x4096x1024_d0
    (ix3 (2 : Fin 3) (⟨b.val * 2048 + s.val, by omega⟩ : Fin 4096) k) 2 (by show (2 : ℕ) < 3; omega)
    S1x4096x1024 (leadX (flat (m ((c : Thread nD τ).loc main_arg2)))) rfl rfl 2 rfl (ix3 (0 : Fin 1) (⟨b.val * 2048 + s.val, by omega⟩ : Fin 4096) k) (fun a ha => ?_) rfl).trans
      (leadFlat_apply _ (0 : Fin 1) b s k)
  match a, ha with
  | ⟨0, _⟩, ha => exact absurd rfl ha
  | ⟨1, _⟩, _ => rfl
  | ⟨2, _⟩, _ => rfl

/-- Slab 0 of the stacked weights is weight matrix 0. -/
theorem stackW0_apply (n k : Fin 1024) :
    (V1 m c main_v10 : S3x1024x1024.Idx → EReal) (ix3 (0 : Fin 3) n k)
      = ((m ((c : Thread nD τ).loc main_arg3)) : S1024x1024.Idx → EReal) (ix2 n k) := by
  rw [stackW_eq]
  refine (concatenate_apply_piece (t := S3x1024x1024) 0
    [⟨S1x1024x1024, leadW (m ((c : Thread nD τ).loc main_arg3))⟩, ⟨S1x1024x1024, leadW (m ((c : Thread nD τ).loc main_arg4))⟩, ⟨S1x1024x1024, leadW (m ((c : Thread nD τ).loc main_arg5))⟩]
    concatenates_S1x1024x1024_S1x1024x1024_S1x1024x1024_S3x1024x1024_d0
    (ix3 (0 : Fin 3) n k) 0 (by show (0 : ℕ) < 3; omega)
    S1x1024x1024 (leadW (m ((c : Thread nD τ).loc main_arg3))) rfl rfl 0 rfl (ix3 (0 : Fin 1) n k) (fun a ha => ?_) rfl).trans
      (leadW_apply _ (0 : Fin 1) n k)
  match a, ha with
  | ⟨0, _⟩, ha => exact absurd rfl ha
  | ⟨1, _⟩, _ => rfl
  | ⟨2, _⟩, _ => rfl

/-- Slab 1 of the stacked weights is weight matrix 1. -/
theorem stackW1_apply (n k : Fin 1024) :
    (V1 m c main_v10 : S3x1024x1024.Idx → EReal) (ix3 (1 : Fin 3) n k)
      = ((m ((c : Thread nD τ).loc main_arg4)) : S1024x1024.Idx → EReal) (ix2 n k) := by
  rw [stackW_eq]
  refine (concatenate_apply_piece (t := S3x1024x1024) 0
    [⟨S1x1024x1024, leadW (m ((c : Thread nD τ).loc main_arg3))⟩, ⟨S1x1024x1024, leadW (m ((c : Thread nD τ).loc main_arg4))⟩, ⟨S1x1024x1024, leadW (m ((c : Thread nD τ).loc main_arg5))⟩]
    concatenates_S1x1024x1024_S1x1024x1024_S1x1024x1024_S3x1024x1024_d0
    (ix3 (1 : Fin 3) n k) 1 (by show (1 : ℕ) < 3; omega)
    S1x1024x1024 (leadW (m ((c : Thread nD τ).loc main_arg4))) rfl rfl 1 rfl (ix3 (0 : Fin 1) n k) (fun a ha => ?_) rfl).trans
      (leadW_apply _ (0 : Fin 1) n k)
  match a, ha with
  | ⟨0, _⟩, ha => exact absurd rfl ha
  | ⟨1, _⟩, _ => rfl
  | ⟨2, _⟩, _ => rfl

/-- Slab 2 of the stacked weights is weight matrix 2. -/
theorem stackW2_apply (n k : Fin 1024) :
    (V1 m c main_v10 : S3x1024x1024.Idx → EReal) (ix3 (2 : Fin 3) n k)
      = ((m ((c : Thread nD τ).loc main_arg5)) : S1024x1024.Idx → EReal) (ix2 n k) := by
  rw [stackW_eq]
  refine (concatenate_apply_piece (t := S3x1024x1024) 0
    [⟨S1x1024x1024, leadW (m ((c : Thread nD τ).loc main_arg3))⟩, ⟨S1x1024x1024, leadW (m ((c : Thread nD τ).loc main_arg4))⟩, ⟨S1x1024x1024, leadW (m ((c : Thread nD τ).loc main_arg5))⟩]
    concatenates_S1x1024x1024_S1x1024x1024_S1x1024x1024_S3x1024x1024_d0
    (ix3 (2 : Fin 3) n k) 2 (by show (2 : ℕ) < 3; omega)
    S1x1024x1024 (leadW (m ((c : Thread nD τ).loc main_arg5))) rfl rfl 2 rfl (ix3 (0 : Fin 1) n k) (fun a ha => ?_) rfl).trans
      (leadW_apply _ (0 : Fin 1) n k)
  match a, ha with
  | ⟨0, _⟩, ha => exact absurd rfl ha
  | ⟨1, _⟩, _ => rfl
  | ⟨2, _⟩, _ => rfl

end Cert.KernelIdeal.HandValue

end
-- ==== Proof.KVProj.lean ====
/-
  The projection region: from what each grid point writes back to the whole output array, and the array in terms of
  the launch arguments.

  Point (p, j) of the 3 × 8 grid holds rows 512 · j … 512 · j + 511 of slab p of the stacked inputs and all of slab p of
  the stacked weights, and writes back the same rows of slab p of the output: entry (r, n) of its block is the row's
  product with weight row n. The 24 blocks tile the [3, 4096, 1024] output, so the output is, at (p, r, n), the sum over
  k of X[p, r, k] · W[p, n, k] for the stacked arrays X and W the region was entered with; with slab p of X the
  flattened input p and slab p of W the weight matrix p, row b · 2048 + s of slab p is the projection of input p at
  (b, s).
-/
import proofs.«182103_j40724879900854_1_alg».proof.Proof.KIData
import proofs.«182103_j40724879900854_1_alg».proof.Proof.KVPay
import proofs.«182103_j40724879900854_1_alg».proof.Proof.KVHost0
import proofs.«182103_j40724879900854_1_alg».proof.Proof.Spec
import Idealize.ShloMosaic.Lib.ValueIdx
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

section Region
-- the buffer contents the region is entered with
variable (V : (c : Dev nD) → (b : Ref sig .tc) → Buf (Elt Ideal) ((c : Thread nD τ).loc b)) (c : Dev nD)

/-- The all-zero offsets, as the bodies' whole-block loads and stores spell them. -/
theorem zero3 : (![0, 0, 0] : Fin 3 → Nat) = fun _ => 0 := funext fun a => by fin_cases a <;> rfl

/-- Stacked rows against stacked weight rows: entry (p, r, n) is the sum over k of X[p, r, k] · W[p, n, k]. -/
def stackProj (X : S3x4096x1024.Idx → EReal) (W : S3x1024x1024.Idx → EReal) (p : Fin 3) (r : Fin 4096) (n : Fin 1024) : EReal :=
  ∑ k : Fin 1024, X (ix3 p r k) * W (ix3 p n k)
/-- The same laid out as the [3, 4096, 1024] array. -/
def stackProjArr (X : S3x4096x1024.Idx → EReal) (W : S3x1024x1024.Idx → EReal) : S3x4096x1024.Idx → EReal :=
  fun i => stackProj X W (i 0) (i 1) (i 2)

/-- The projection body's value at an index of its block. -/
theorem projBody_at (x : Vec Ideal S1x512x1024 .f32) (w : Vec Ideal S1x1024x1024 .f32) (y : S1x512x1024.Idx) :
    k0_pay1 x w y = ∑ k : Fin 1024, x (ix3 (0 : Fin 1) (y 1) k) * w (ix3 (0 : Fin 1) (y 2) k) := by
  obtain ⟨u, r, n, rfl⟩ : ∃ (u : Fin 1) (r : Fin 512) (n : Fin 1024), y = ix3 u r n := ⟨y 0, y 1, y 2, eq_ix3 y⟩
  exact projBody_apply x w u r n

/-- The three windows' block indices at a grid point, decided over the 24 points: the input rows move with the output
    rows (same slab, same row block, column block 0), the weight block is the output's slab (row and column block 0). -/
theorem idx_facts0 : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 :=
  (by decide +kernel : ∀ t : Fin grid0.N, _)

/-- Every (slab, row block) is some point's output block. -/
theorem idx_onto0 : ∀ (q0 : Fin 3) (q1 : Fin 8), ∃ t : Fin cfg0.N, win0_2.index t = ![q0.val, q1.val, 0] :=
  (by decide +kernel : ∀ (q0 : Fin 3) (q1 : Fin 8), ∃ t : Fin grid0.N, win0_2.index t = ![q0.val, q1.val, 0])

/-- A row block of the stacked inputs read off the array: element y of the block at point t sits at block index × block
    size + y on each axis. -/
theorem readX (t : Fin cfg0.N) (y : S1x512x1024.Idx) (i : S3x4096x1024.Idx)
    (h0 : (i 0).val = win0_0.index t (0 : Fin 3) * 1 + (y 0).val) (h1 : (i 1).val = win0_0.index t (1 : Fin 3) * 512 + (y 1).val)
    (h2 : (i 2).val = win0_0.index t (2 : Fin 3) * 1024 + (y 2).val) :
    (iblk0 V c 0 t : Vec Ideal S1x512x1024 .f32) y = (V c main_v6 : S3x4096x1024.Idx → EReal) i := by
  unfold iblk0
  rw [View.read_apply]
  show V c main_v6 _ = V c main_v6 _
  congr 1
  funext a
  apply Fin.ext
  match a with
  | ⟨0, _⟩ => show win0_0.index t (0 : Fin 3) * 1 + 1 * (y 0).val = (i 0).val; omega
  | ⟨1, _⟩ => show win0_0.index t (1 : Fin 3) * 512 + 1 * (y 1).val = (i 1).val; omega
  | ⟨2, _⟩ => show win0_0.index t (2 : Fin 3) * 1024 + 1 * (y 2).val = (i 2).val; omega

/-- A weight block read off the stacked weights, likewise. -/
theorem readW (t : Fin cfg0.N) (y : S1x1024x1024.Idx) (i : S3x1024x1024.Idx)
    (h0 : (i 0).val = win0_1.index t (0 : Fin 3) * 1 + (y 0).val) (h1 : (i 1).val = win0_1.index t (1 : Fin 3) * 1024 + (y 1).val)
    (h2 : (i 2).val = win0_1.index t (2 : Fin 3) * 1024 + (y 2).val) :
    (iblk0 V c 1 t : Vec Ideal S1x1024x1024 .f32) y = (V c main_v10 : S3x1024x1024.Idx → EReal) i := by
  unfold iblk0
  rw [View.read_apply]
  show V c main_v10 _ = V c main_v10 _
  congr 1
  funext a
  apply Fin.ext
  match a with
  | ⟨0, _⟩ => show win0_1.index t (0 : Fin 3) * 1 + 1 * (y 0).val = (i 0).val; omega
  | ⟨1, _⟩ => show win0_1.index t (1 : Fin 3) * 1024 + 1 * (y 1).val = (i 1).val; omega
  | ⟨2, _⟩ => show win0_1.index t (2 : Fin 3) * 1024 + 1 * (y 2).val = (i 2).val; omega

/-- What point t writes back is its block of the stacked product of the arrays the region was entered with. -/
theorem flushed0 (t : Fin cfg0.N) :
    (dat0 V c).flushed 2 t = ((cfg0.win 2).blk t).view.read (Elt Ideal) (stackProjArr (V c main_v6) (V c main_v10)) := by
  show (cfg0.win 2).cut (grid0.coords t) ((dat0 V c).after 2 t) = _
  rw [after0_2]
  unfold out0_2
  rw [View.canon_unit_zero zero3]
  simp only [View.ld_unit_zero (S := S1x512x1024) zero3, View.ld_unit_zero (S := S1x1024x1024) zero3]
  funext j
  show k0_pay1 (iblk0 V c 0 t) (iblk0 V c 1 t) ((cfg0.win 2).xinj (grid0.coords t) j)
    = stackProjArr (V c main_v6) (V c main_v10) (((cfg0.win 2).blk t).view.emb j)
  refine (projBody_at _ _ _).trans ?_
  unfold stackProjArr stackProj
  refine Finset.sum_congr rfl fun k _ => ?_
  obtain ⟨e0, e1, e2, e3, e4, e5, e6⟩ := idx_facts0 t
  have hj0 : (j 0).val < 1 := (j 0).isLt
  have hj1 : (j 1).val < 512 := (j 1).isLt
  have hj2 : (j 2).val < 1024 := (j 2).isLt
  refine congrArg₂ (· * ·) (readX V c t _ _ ?_ ?_ ?_) (readW V c t _ _ ?_ ?_ ?_)
  · show win0_2.index t (0 : Fin 3) * 1 + 1 * (j 0).val = win0_0.index t (0 : Fin 3) * 1 + 0; omega
  · show win0_2.index t (1 : Fin 3) * 512 + 1 * (j 1).val = win0_0.index t (1 : Fin 3) * 512 + (j 1).val; omega
  · show k.val = win0_0.index t (2 : Fin 3) * 1024 + k.val; omega
  · show win0_2.index t (0 : Fin 3) * 1 + 1 * (j 0).val = win0_1.index t (0 : Fin 3) * 1 + 0; omega
  · show win0_2.index t (2 : Fin 3) * 1024 + 1 * (j 2).val = win0_1.index t (1 : Fin 3) * 1024 + (j 2).val; omega
  · show k.val = win0_1.index t (2 : Fin 3) * 1024 + k.val; omega

/-- An index of the array is in point t's block iff each coordinate is in the block's range on its axis. -/
theorem mem_blk0 (t : Fin cfg0.N) (i : S3x4096x1024.Idx) :
    i ∈ ((cfg0.win 2).blk t).view.set ↔ ∀ a : Fin 3, win0_2.index t a * S1x512x1024.size a ≤ (i a).val ∧ (i a).val < win0_2.index t a * S1x512x1024.size a + S1x512x1024.size a := by
  show i ∈ ((View.whole main_v11).slice (win0_2.rect t)).set ↔ _
  rw [View.set_slice_whole, Rect.mem_set_unit]
  exact Iff.rfl

/-- Every index of the [3, 4096, 1024] array is in some point's block: slab p, rows 512 · q … 512 · q + 511. -/
theorem cover0 (i : S3x4096x1024.Idx) : ∃ t : Fin cfg0.N, (cfg0.win 2).flush t = true ∧ i ∈ ((cfg0.win 2).blk t).view.set := by
  have hi0 : (i 0).val < 3 := (i 0).isLt
  have hi1 : (i 1).val < 4096 := (i 1).isLt
  have hi2 : (i 2).val < 1024 := (i 2).isLt
  obtain ⟨t, ht⟩ := idx_onto0 ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- The projection region leaves, in its output array, every stacked row against its slab's weight rows. -/
theorem region0 : (dat0 V c).arrAt 2 cfg0.N = stackProjArr (V c main_v6) (V c main_v10) :=
  (dat0 V c).arrAt_eq_of_cover 2 (stackProjArr (V c main_v6) (V c main_v10)) (fun t _ => flushed0 V c t) cover0

end Region

variable (m : (ℓ : Loc nD τ sig) → Buf (Elt Ideal) ℓ) (c : Dev nD)

/-- The output array at the region's exit, in terms of the two arrays at its entry. -/
theorem stack_exit : (W2 (F := Ideal) m c (Proc.devRef .tc main_v11) : S3x4096x1024.Idx → EReal)
    = stackProjArr (V1 m c main_v6) (V1 m c main_v10) :=
  (W2_arr m c 2).trans (region0 (V1 m) c)

/-- Slab 0 of the output is the first input's projection by the first weight matrix. -/
theorem proj_q (b : Fin 2) (s : Fin 2048) (n : Fin 1024) :
    (W2 (F := Ideal) m c (Proc.devRef .tc main_v11) : S3x4096x1024.Idx → EReal) (ix3 (0 : Fin 3) (⟨b.val * 2048 + s.val, by omega⟩ : Fin 4096) n)
      = Cert.Spec.proj (m ((c : Thread nD τ).loc main_arg0)) (m ((c : Thread nD τ).loc main_arg3)) b s n := by
  refine (congrFun (stack_exit m c) _).trans ?_
  show stackProj (V1 m c main_v6) (V1 m c main_v10) (0 : Fin 3) (⟨b.val * 2048 + s.val, by omega⟩ : Fin 4096) n = _
  unfold stackProj Cert.Spec.proj
  exact Finset.sum_congr rfl fun k _ => congrArg₂ (· * ·) (stackX0_apply m c b s k) (stackW0_apply m c n k)

/-- Slab 1 is the second input's projection by the second weight matrix. -/
theorem proj_k (b : Fin 2) (s : Fin 2048) (n : Fin 1024) :
    (W2 (F := Ideal) m c (Proc.devRef .tc main_v11) : S3x4096x1024.Idx → EReal) (ix3 (1 : Fin 3) (⟨b.val * 2048 + s.val, by omega⟩ : Fin 4096) n)
      = Cert.Spec.proj (m ((c : Thread nD τ).loc main_arg1)) (m ((c : Thread nD τ).loc main_arg4)) b s n := by
  refine (congrFun (stack_exit m c) _).trans ?_
  show stackProj (V1 m c main_v6) (V1 m c main_v10) (1 : Fin 3) (⟨b.val * 2048 + s.val, by omega⟩ : Fin 4096) n = _
  unfold stackProj Cert.Spec.proj
  exact Finset.sum_congr rfl fun k _ => congrArg₂ (· * ·) (stackX1_apply m c b s k) (stackW1_apply m c n k)

/-- Slab 2 is the third input's projection by the third weight matrix. -/
theorem proj_v (b : Fin 2) (s : Fin 2048) (n : Fin 1024) :
    (W2 (F := Ideal) m c (Proc.devRef .tc main_v11) : S3x4096x1024.Idx → EReal) (ix3 (2 : Fin 3) (⟨b.val * 2048 + s.val, by omega⟩ : Fin 4096) n)
      = Cert.Spec.proj (m ((c : Thread nD τ).loc main_arg2)) (m ((c : Thread nD τ).loc main_arg5)) b s n := by
  refine (congrFun (stack_exit m c) _).trans ?_
  show stackProj (V1 m c main_v6) (V1 m c main_v10) (2 : Fin 3) (⟨b.val * 2048 + s.val, by omega⟩ : Fin 4096) n = _
  unfold stackProj Cert.Spec.proj
  exact Finset.sum_congr rfl fun k _ => congrArg₂ (· * ·) (stackX2_apply m c b s k) (stackW2_apply m c n k)

end Cert.KernelIdeal.HandValue

end
-- ==== Proof.KVAttn.lean ====
/-
  What the attention region leaves in its output array, as one function of its four input arrays.

  The region's grid is 2 × 16: point (b, h) loads block (b, h, ·, ·) of each of the four [2, 16, 2048, 64] inputs, a
  whole [1, 1, 2048, 64] block, and stores over the same block of the output Q · (Kᵀ · V) + R of the four blocks.
  A block's element (0, 0, s, e) at point (b, h) is the array's element (b, h, s, e), the 32 blocks fill the array, so
  the output array ends holding, at (b, h, s, e),
      Σ_d A₀[b, h, s, d] · (Σ_t A₁[b, h, t, d] · A₂[b, h, t, e]) + A₃[b, h, s, e].
-/
import proofs.«182103_j40724879900854_1_alg».proof.Proof.KIData
import proofs.«182103_j40724879900854_1_alg».proof.Proof.KVPay
import Idealize.ShloMosaic.Lib.Pipeline.Value
import Idealize.ShloMosaic.Lib.ValueIdx

noncomputable section

namespace Cert.KernelIdeal.HandTop

open Cert.KernelIdeal Cert.KernelIdeal.Gen Cert.KernelIdeal.Hand Cert.KernelIdeal.HandValue
open Idealize.ShloMosaic Idealize.ShloMosaic.TcCoe Idealize.ShloMosaic.ValueIdx
open Idealize.SL.Sem
open Idealize.ShloMosaic.Pipeline (Dat)
open scoped BigOperators

/-- Q · (Kᵀ · V) + R of batch `b`, head `h` at row `s`, lane `e`, over four [2, 16, 2048, 64] arrays. -/
def attnAt (A0 A1 A2 A3 : S2x16x2048x64.Idx → EReal) (b : Fin 2) (h : Fin 16) (s : Fin 2048) (e : Fin 64) : EReal :=
  (∑ d : Fin 64, A0 (ix4 b h s d) * ∑ t : Fin 2048, A1 (ix4 b h t d) * A2 (ix4 b h t e)) + A3 (ix4 b h s e)

/-- The same as a [2, 16, 2048, 64] array. -/
def attnArr (A0 A1 A2 A3 : S2x16x2048x64.Idx → EReal) : S2x16x2048x64.Idx → EReal :=
  fun i => attnAt A0 A1 A2 A3 (i 0) (i 1) (i 2) (i 3)

theorem attnArr_apply (A0 A1 A2 A3 : S2x16x2048x64.Idx → EReal) (b : Fin 2) (h : Fin 16) (s : Fin 2048) (e : Fin 64) :
    attnArr A0 A1 A2 A3 (ix4 b h s e) = attnAt A0 A1 A2 A3 b h s e := rfl

/-- The block's zero offsets, as the constant function. -/
theorem zeroOff : (![0, 0, 0, 0] : Fin 4 → Nat) = fun _ => 0 := funext fun a => by fin_cases a <;> rfl

/-- The body's stored value at an element of the block, given what the four loaded blocks hold: if block element
    (0, 0, s, d) of each input is the array's element (b, h, s, d), the value at block element `j` is `attnArr` at the
    array element with the same row and lane in batch `b`, head `h`. -/
theorem body_value (x0 x1 x2 x3 : Vec Ideal S1x1x2048x64 .f32) (A0 A1 A2 A3 : S2x16x2048x64.Idx → EReal)
    (b : Fin 2) (h : Fin 16)
    (h0 : ∀ (s : Fin 2048) (d : Fin 64), x0 (ix4 (0 : Fin 1) (0 : Fin 1) s d) = A0 (ix4 b h s d))
    (h1 : ∀ (s : Fin 2048) (d : Fin 64), x1 (ix4 (0 : Fin 1) (0 : Fin 1) s d) = A1 (ix4 b h s d))
    (h2 : ∀ (s : Fin 2048) (d : Fin 64), x2 (ix4 (0 : Fin 1) (0 : Fin 1) s d) = A2 (ix4 b h s d))
    (h3 : ∀ (s : Fin 2048) (d : Fin 64), x3 (ix4 (0 : Fin 1) (0 : Fin 1) s d) = A3 (ix4 b h s d))
    (j : S1x1x2048x64.Idx) (i : S2x16x2048x64.Idx)
    (e0 : (i 0).val = b.val) (e1 : (i 1).val = h.val) (e2 : (i 2).val = (j 2).val) (e3 : (i 3).val = (j 3).val) :
    k1_pay1 x0 x1 x2 x3 j = attnArr A0 A1 A2 A3 i := by
  obtain ⟨u, u', s, e, rfl⟩ : ∃ (u u' : Fin 1) (s : Fin 2048) (e : Fin 64), j = ix4 u u' s e :=
    ⟨j 0, j 1, j 2, j 3, eq_ix4 j⟩
  obtain rfl : i = ix4 b h s e := by
    funext a
    match a with
    | ⟨0, _⟩ => exact Fin.ext e0
    | ⟨1, _⟩ => exact Fin.ext e1
    | ⟨2, _⟩ => exact Fin.ext e2
    | ⟨3, _⟩ => exact Fin.ext e3
  rw [attnBody_apply, attnArr_apply]
  unfold attnAt
  simp only [h0, h1, h2, h3]

section Region
variable (V : (c : Dev nD) → (b : Ref sig .tc) → Buf (Elt Ideal) ((c : Thread nD τ).loc b))

/-- The five windows' block indices over the grid: point `t` is batch `t / 16`, head `t % 16`, and every window's block
    at it is (t / 16, t % 16, 0, 0). -/
theorem blockIdx : ∀ t : Fin cfg1.N,
    (win1_0.index t (0 : Fin 4) = t.val / 16 ∧ win1_0.index t (1 : Fin 4) = t.val % 16
      ∧ win1_0.index t (2 : Fin 4) = 0 ∧ win1_0.index t (3 : Fin 4) = 0)
    ∧ (win1_1.index t (0 : Fin 4) = t.val / 16 ∧ win1_1.index t (1 : Fin 4) = t.val % 16
      ∧ win1_1.index t (2 : Fin 4) = 0 ∧ win1_1.index t (3 : Fin 4) = 0)
    ∧ (win1_2.index t (0 : Fin 4) = t.val / 16 ∧ win1_2.index t (1 : Fin 4) = t.val % 16
      ∧ win1_2.index t (2 : Fin 4) = 0 ∧ win1_2.index t (3 : Fin 4) = 0)
    ∧ (win1_3.index t (0 : Fin 4) = t.val / 16 ∧ win1_3.index t (1 : Fin 4) = t.val % 16
      ∧ win1_3.index t (2 : Fin 4) = 0 ∧ win1_3.index t (3 : Fin 4) = 0)
    ∧ (win1_4.index t (0 : Fin 4) = t.val / 16 ∧ win1_4.index t (1 : Fin 4) = t.val % 16
      ∧ win1_4.index t (2 : Fin 4) = 0 ∧ win1_4.index t (3 : Fin 4) = 0) :=
  (by decide +kernel : ∀ t : Fin grid1.N, _)

/-- The first input's block at point `t`: element (0, 0, s, d) is the array's element (t / 16, t % 16, s, d). -/
theorem block0_apply (c : Dev nD) (t : Fin cfg1.N) (b : Fin 2) (h : Fin 16) (hb : b.val = t.val / 16) (hh : h.val = t.val % 16)
    (s : Fin 2048) (d : Fin 64) :
    (iblk1 V c 0 t : Vec Ideal S1x1x2048x64 .f32) (ix4 (0 : Fin 1) (0 : Fin 1) s d)
      = (V c main_v15 : S2x16x2048x64.Idx → EReal) (ix4 b h s d) := by
  obtain ⟨⟨f0, f1, f2, f3⟩, -⟩ := blockIdx t
  unfold iblk1
  rw [View.read_apply]
  show V c main_v15 _ = V c main_v15 _
  congr 1
  funext a
  apply Fin.ext
  match a with
  | ⟨0, _⟩ => show win1_0.index t (0 : Fin 4) * 1 + 1 * 0 = b.val; omega
  | ⟨1, _⟩ => show win1_0.index t (1 : Fin 4) * 1 + 1 * 0 = h.val; omega
  | ⟨2, _⟩ => show win1_0.index t (2 : Fin 4) * 2048 + 1 * s.val = s.val; omega
  | ⟨3, _⟩ => show win1_0.index t (3 : Fin 4) * 64 + 1 * d.val = d.val; omega

/-- The second input's block, likewise. -/
theorem block1_apply (c : Dev nD) (t : Fin cfg1.N) (b : Fin 2) (h : Fin 16) (hb : b.val = t.val / 16) (hh : h.val = t.val % 16)
    (s : Fin 2048) (d : Fin 64) :
    (iblk1 V c 1 t : Vec Ideal S1x1x2048x64 .f32) (ix4 (0 : Fin 1) (0 : Fin 1) s d)
      = (V c main_v19 : S2x16x2048x64.Idx → EReal) (ix4 b h s d) := by
  obtain ⟨-, ⟨f0, f1, f2, f3⟩, -⟩ := blockIdx t
  unfold iblk1
  rw [View.read_apply]
  show V c main_v19 _ = V c main_v19 _
  congr 1
  funext a
  apply Fin.ext
  match a with
  | ⟨0, _⟩ => show win1_1.index t (0 : Fin 4) * 1 + 1 * 0 = b.val; omega
  | ⟨1, _⟩ => show win1_1.index t (1 : Fin 4) * 1 + 1 * 0 = h.val; omega
  | ⟨2, _⟩ => show win1_1.index t (2 : Fin 4) * 2048 + 1 * s.val = s.val; omega
  | ⟨3, _⟩ => show win1_1.index t (3 : Fin 4) * 64 + 1 * d.val = d.val; omega

/-- The third input's block, likewise. -/
theorem block2_apply (c : Dev nD) (t : Fin cfg1.N) (b : Fin 2) (h : Fin 16) (hb : b.val = t.val / 16) (hh : h.val = t.val % 16)
    (s : Fin 2048) (d : Fin 64) :
    (iblk1 V c 2 t : Vec Ideal S1x1x2048x64 .f32) (ix4 (0 : Fin 1) (0 : Fin 1) s d)
      = (V c main_v23 : S2x16x2048x64.Idx → EReal) (ix4 b h s d) := by
  obtain ⟨-, -, ⟨f0, f1, f2, f3⟩, -⟩ := blockIdx t
  unfold iblk1
  rw [View.read_apply]
  show V c main_v23 _ = V c main_v23 _
  congr 1
  funext a
  apply Fin.ext
  match a with
  | ⟨0, _⟩ => show win1_2.index t (0 : Fin 4) * 1 + 1 * 0 = b.val; omega
  | ⟨1, _⟩ => show win1_2.index t (1 : Fin 4) * 1 + 1 * 0 = h.val; omega
  | ⟨2, _⟩ => show win1_2.index t (2 : Fin 4) * 2048 + 1 * s.val = s.val; omega
  | ⟨3, _⟩ => show win1_2.index t (3 : Fin 4) * 64 + 1 * d.val = d.val; omega

/-- The fourth input's block, likewise. -/
theorem block3_apply (c : Dev nD) (t : Fin cfg1.N) (b : Fin 2) (h : Fin 16) (hb : b.val = t.val / 16) (hh : h.val = t.val % 16)
    (s : Fin 2048) (d : Fin 64) :
    (iblk1 V c 3 t : Vec Ideal S1x1x2048x64 .f32) (ix4 (0 : Fin 1) (0 : Fin 1) s d)
      = (V c main_v25 : S2x16x2048x64.Idx → EReal) (ix4 b h s d) := by
  obtain ⟨-, -, -, ⟨f0, f1, f2, f3⟩, -⟩ := blockIdx t
  unfold iblk1
  rw [View.read_apply]
  show V c main_v25 _ = V c main_v25 _
  congr 1
  funext a
  apply Fin.ext
  match a with
  | ⟨0, _⟩ => show win1_3.index t (0 : Fin 4) * 1 + 1 * 0 = b.val; omega
  | ⟨1, _⟩ => show win1_3.index t (1 : Fin 4) * 1 + 1 * 0 = h.val; omega
  | ⟨2, _⟩ => show win1_3.index t (2 : Fin 4) * 2048 + 1 * s.val = s.val; omega
  | ⟨3, _⟩ => show win1_3.index t (3 : Fin 4) * 64 + 1 * d.val = d.val; omega

/-- What point `t` writes back is block `t` of `attnArr` of the four input arrays as the region finds them. -/
theorem written_eq (c : Dev nD) (t : Fin cfg1.N) :
    (dat1 V c).flushed 4 t
      = ((cfg1.win 4).blk t).view.read (Elt Ideal) (attnArr (V c main_v15) (V c main_v19) (V c main_v23) (V c main_v25)) := by
  have hN : t.val < 32 := lt_of_lt_of_eq t.isLt N_1
  obtain ⟨-, -, -, -, ⟨f0, f1, f2, f3⟩⟩ := blockIdx t
  show (cfg1.win 4).cut (grid1.coords t) ((dat1 V c).after 4 t) = _
  rw [after1_4]
  unfold out1_4
  rw [View.canon_unit_zero zeroOff]
  simp only [View.ld_unit_zero (S := S1x1x2048x64) zeroOff]
  funext j
  show k1_pay1 (iblk1 V c 0 t) (iblk1 V c 1 t) (iblk1 V c 2 t) (iblk1 V c 3 t) j
      = attnArr (V c main_v15) (V c main_v19) (V c main_v23) (V c main_v25) (((cfg1.win 4).blk t).view.emb j)
  have hj0 : (j 0).val < 1 := (j 0).isLt
  have hj1 : (j 1).val < 1 := (j 1).isLt
  refine body_value _ _ _ _ _ _ _ _ ⟨t.val / 16, by omega⟩ ⟨t.val % 16, by omega⟩
    (block0_apply V c t _ _ rfl rfl) (block1_apply V c t _ _ rfl rfl) (block2_apply V c t _ _ rfl rfl)
    (block3_apply V c t _ _ rfl rfl) j _ ?_ ?_ ?_ ?_
  · show win1_4.index t (0 : Fin 4) * 1 + 1 * (j 0).val = t.val / 16; omega
  · show win1_4.index t (1 : Fin 4) * 1 + 1 * (j 1).val = t.val % 16; omega
  · show win1_4.index t (2 : Fin 4) * 2048 + 1 * (j 2).val = (j 2).val; omega
  · show win1_4.index t (3 : Fin 4) * 64 + 1 * (j 3).val = (j 3).val; omega

/-- An index of the output array is in point `t`'s block iff each coordinate is in the block's range on its axis. -/
theorem mem_block (t : Fin cfg1.N) (i : S2x16x2048x64.Idx) :
    i ∈ ((cfg1.win 4).blk t).view.set
      ↔ ∀ a : Fin 4, win1_4.index t a * S1x1x2048x64.size a ≤ (i a).val
          ∧ (i a).val < win1_4.index t a * S1x1x2048x64.size a + S1x1x2048x64.size a := by
  show i ∈ ((View.whole main_v26).slice (win1_4.rect t)).set ↔ _
  rw [View.set_slice_whole, Rect.mem_set_unit]
  exact Iff.rfl

/-- The output array after the region: `attnArr` of the four input arrays. The blocks fill the array: element
    (b, h, ·, ·) is in point b · 16 + h's block. -/
theorem region_out (c : Dev nD) :
    (dat1 V c).arrAt 4 cfg1.N = attnArr (V c main_v15) (V c main_v19) (V c main_v23) (V c main_v25) :=
  (dat1 V c).arrAt_eq_of_cover 4 _ (fun t _ => written_eq V c t) fun i => by
    have h0 : (i 0).val < 2 := (i 0).isLt
    have h1 : (i 1).val < 16 := (i 1).isLt
    have h2 : (i 2).val < 2048 := (i 2).isLt
    have h3 : (i 3).val < 64 := (i 3).isLt
    have hN : cfg1.N = 32 := N_1
    refine ⟨⟨(i 0).val * 16 + (i 1).val, by rw [hN]; omega⟩, flush1_4 _, ?_⟩
    obtain ⟨-, -, -, -, ⟨f0, f1, f2, f3⟩⟩ := blockIdx ⟨(i 0).val * 16 + (i 1).val, by rw [hN]; omega⟩
    rw [mem_block]
    intro a
    match a with
    | ⟨0, _⟩ =>
      show win1_4.index _ (0 : Fin 4) * 1 ≤ (i 0).val ∧ (i 0).val < win1_4.index _ (0 : Fin 4) * 1 + 1
      rw [f0]; show ((i 0).val * 16 + (i 1).val) / 16 * 1 ≤ (i 0).val ∧ (i 0).val < ((i 0).val * 16 + (i 1).val) / 16 * 1 + 1; omega
    | ⟨1, _⟩ =>
      show win1_4.index _ (1 : Fin 4) * 1 ≤ (i 1).val ∧ (i 1).val < win1_4.index _ (1 : Fin 4) * 1 + 1
      rw [f1]; show ((i 0).val * 16 + (i 1).val) % 16 * 1 ≤ (i 1).val ∧ (i 1).val < ((i 0).val * 16 + (i 1).val) % 16 * 1 + 1; omega
    | ⟨2, _⟩ =>
      show win1_4.index _ (2 : Fin 4) * 2048 ≤ (i 2).val ∧ (i 2).val < win1_4.index _ (2 : Fin 4) * 2048 + 2048
      rw [f2]; omega
    | ⟨3, _⟩ =>
      show win1_4.index _ (3 : Fin 4) * 64 ≤ (i 3).val ∧ (i 3).val < win1_4.index _ (3 : Fin 4) * 64 + 64
      rw [f3]; omega

end Region

end Cert.KernelIdeal.HandTop

end
-- ==== Proof.KVTop.lean ====
/-
  The kernel program's result array, from the entries of the attention region's four input arrays.

  After the attention region the program moves the head axis of its [2, 16, 2048, 64] output back behind the row axis
  and merges head and lane into one column, n = h · 64 + e. Read at (b, s, n) the result is therefore the region's
  output at (b, n / 64, s, n % 64), which is Q · (Kᵀ · V) + R of batch b and head n / 64 at row s, lane n % 64.
-/
import proofs.«182103_j40724879900854_1_alg».proof.Proof.KVAttn
import proofs.«182103_j40724879900854_1_alg».proof.Proof.Spec
import Idealize.ShloMosaic.Lib.StableHlo.Run
import Idealize.ShloMosaic.Lib.Pipeline.Value
import Idealize.ShloMosaic.Lib.ValueIdx

noncomputable section

namespace Cert.KernelIdeal.HandTop

open Cert.KernelIdeal Cert.KernelIdeal.Gen Cert.KernelIdeal.Hand
open Idealize.ShloMosaic Idealize.ShloMosaic.TcCoe Idealize.ShloMosaic.ValueIdx
open Idealize.SL.Sem
open Cert.Spec (col hd ln lay col_hd_ln)
open scoped BigOperators

/-- The two layout steps read at an entry: entry (b, s, n) of the merged array is entry (b, n / 64, s, n % 64) of the
    per-head array. -/
theorem merged_apply {α : Type} (y : S2x16x2048x64.Idx → α) (b : Fin 2) (s : Fin 2048) (n : Fin 1024) :
    shapeCast S2x2048x1024
        (transpose S2x2048x16x64 [0, 2, 1, 3] y transposes_S2x16x2048x64_S2x2048x16x64_0_2_1_3)
        shapeCasts_S2x2048x16x64_S2x2048x1024 (ix3 b s n)
      = y (ix4 b (hd n) s (ln n)) := by
  have hb := b.isLt; have hs := s.isLt; have hn := n.isLt
  refine (shapeCast_apply _ shapeCasts_S2x2048x16x64_S2x2048x1024 (ix3 b s n) (ix4 b s (hd n) (ln n)) ?_).trans ?_
  · rw [Shape.rowMajor_val_four, Shape.rowMajor_val_three]
    show ((b.val * 2048 + s.val) * 16 + n.val / 64) * 64 + n.val % 64 = (b.val * 2048 + s.val) * 1024 + n.val
    omega
  · exact transpose_apply [0, 2, 1, 3] y transposes_S2x16x2048x64_S2x2048x16x64_0_2_1_3
      (ix4 b s (hd n) (ln n)) (ix4 b (hd n) s (ln n)) (fun a => match a with
        | ⟨0, _⟩ => rfl
        | ⟨1, _⟩ => rfl
        | ⟨2, _⟩ => rfl
        | ⟨3, _⟩ => rfl)

variable (m : (ℓ : Loc nD τ sig) → Buf (Elt Ideal) ℓ)

/-- The result buffer after the last stretch of host operations: the region's output array, transposed and merged. -/
theorem tail_eq (c : Dev nD) :
    (W5 (F := Ideal) m c (Proc.devRef .tc main_v28) : S2x2048x1024.Idx → EReal)
      = shapeCast S2x2048x1024
          (transpose S2x2048x16x64 [0, 2, 1, 3] (W4 (F := Ideal) m c (Proc.devRef .tc main_v26) : S2x16x2048x64.Idx → EReal)
            transposes_S2x16x2048x64_S2x2048x16x64_0_2_1_3)
          shapeCasts_S2x2048x16x64_S2x2048x1024 := by
  show StableHlo.after hostOps2 (W4 (F := Ideal) m c) (Proc.devRef .tc main_v28) = _
  after_results
  rfl

/-- The region's output array as the program leaves it: `attnArr` of the four input arrays at the region's entry. -/
theorem region_arr (c : Dev nD) :
    (W4 (F := Ideal) m c (Proc.devRef .tc main_v26) : S2x16x2048x64.Idx → EReal)
      = attnArr (V3 (F := Ideal) m c main_v15) (V3 (F := Ideal) m c main_v19) (V3 (F := Ideal) m c main_v23)
          (V3 (F := Ideal) m c main_v25) :=
  (W4_arr (F := Ideal) m c 4).trans (region_out (V3 (F := Ideal) m) c)

/-- The result array from the entries of the region's inputs: if the four inputs hold, at (b, h, s, d), the values
    Q, K, V at (b, s, h · 64 + d) and R at (b, s, h · 64 + d), the result is the layout of Q · (Kᵀ · V) + R. -/
theorem result_of_entries (c : Dev nD)
    (Q K V : Fin 2 → Fin 2048 → Fin 1024 → EReal) (R : Cert.Spec.SX.Idx → EReal)
    (hq : ∀ (b : Fin 2) (h : Fin 16) (s : Fin 2048) (d : Fin 64),
      (V3 (F := Ideal) m c main_v15 : S2x16x2048x64.Idx → EReal) (ix4 b h s d) = Q b s (col h d))
    (hk : ∀ (b : Fin 2) (h : Fin 16) (s : Fin 2048) (d : Fin 64),
      (V3 (F := Ideal) m c main_v19 : S2x16x2048x64.Idx → EReal) (ix4 b h s d) = K b s (col h d))
    (hv : ∀ (b : Fin 2) (h : Fin 16) (s : Fin 2048) (d : Fin 64),
      (V3 (F := Ideal) m c main_v23 : S2x16x2048x64.Idx → EReal) (ix4 b h s d) = V b s (col h d))
    (hr : ∀ (b : Fin 2) (h : Fin 16) (s : Fin 2048) (d : Fin 64),
      (V3 (F := Ideal) m c main_v25 : S2x16x2048x64.Idx → EReal) (ix4 b h s d) = R (ix3 b s (col h d))) :
    (W5 (F := Ideal) m c (Proc.devRef .tc main_v28) : Cert.Spec.SX.Idx → EReal)
      = lay (fun b s h e =>
          (∑ d : Fin 64, Q b s (col h d) * ∑ t : Fin 2048, K b t (col h d) * V b t (col h e))
            + R (ix3 b s (col h e))) := by
  funext i
  obtain ⟨b, s, n, rfl⟩ : ∃ (b : Fin 2) (s : Fin 2048) (n : Fin 1024), i = ix3 b s n :=
    ⟨i 0, i 1, i 2, eq_ix3 i⟩
  rw [tail_eq, merged_apply, region_arr, attnArr_apply]
  unfold attnAt
  simp only [hq, hk, hv, hr]
  rfl

end Cert.KernelIdeal.HandTop

end
-- ==== Proof.SpecLaw.lean ====
/-
  The algebraic law joining the two programs: on real (finite) entries the two bracketings of a product of three
  matrices agree, Q · (Kᵀ · V) = (Q · Kᵀ) · V, entry by entry.

  In the extended reals multiplication does not distribute over every sum (a factor times a sum of opposite
  infinities), so the identity is proved where it is true: each projection of real arrays is a real number, every
  partial sum and product below is then the coercion of a real one, and the identity is the real identity read
  through the coercion.
-/
import proofs.«182103_j40724879900854_1_alg».proof.Proof.Spec

noncomputable section

namespace Cert.Spec

open Idealize.ShloMosaic Idealize.ShloMosaic.ValueIdx
open scoped BigOperators

/-- A finite sum of real numbers, read in the extended reals, is the sum of the summands read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals a product of three matrices may be bracketed either way: entrywise,
    Σ_d p_d · (Σ_t q_{t,d} · v_t) = Σ_t (Σ_d p_d · q_{t,d}) · v_t. -/
theorem real_assoc {α β : Type*} [Fintype α] [Fintype β] (p : α → ℝ) (q : β → α → ℝ) (v : β → ℝ) :
    ∑ d, p d * ∑ t, q t d * v t = ∑ t, (∑ d, p d * q t d) * v t := by
  simp only [Finset.mul_sum, Finset.sum_mul]
  rw [Finset.sum_comm]
  exact Finset.sum_congr rfl fun t _ => Finset.sum_congr rfl fun d _ => (mul_assoc _ _ _).symm

/-- The same identity in the extended reals, for real entries: every partial sum and product is then a real
    number, so the identity is the real one read through the coercion. (With an infinite entry the two sides
    can differ: multiplication does not distribute over a sum of opposite infinities.) -/
theorem ereal_assoc {α β : Type*} [Fintype α] [Fintype β] (p : α → ℝ) (q : β → α → ℝ) (v : β → ℝ) :
    ∑ d, (p d : EReal) * ∑ t, (q t d : EReal) * (v t : EReal)
      = ∑ t, (∑ d, (p d : EReal) * (q t d : EReal)) * (v t : EReal) := by
  simp only [← EReal.coe_mul, ← coe_sum]
  exact congrArg _ (real_assoc p q v)

/-- The projection of real arrays is a real number: the real sum of the real products. -/
theorem proj_coe (xr : SX.Idx → ℝ) (wr : SW.Idx → ℝ) (b : Fin 2) (s : Fin 2048) (n : Fin 1024) :
    proj (fun i => (xr i : EReal)) (fun i => (wr i : EReal)) b s n
      = ((∑ k : Fin 1024, xr (ix3 b s k) * wr (ix2 n k) : ℝ) : EReal) := by
  unfold proj
  simp only [← EReal.coe_mul, ← coe_sum]

/-- On real inputs the two bracketings of the three-matrix product agree entry by entry. -/
theorem attnK_eq_attnR (x1 x2 x3 : SX.Idx → EReal) (w1 w2 w3 : SW.Idx → EReal)
    (h1 : ∀ i, ∃ r : ℝ, x1 i = (r : EReal)) (h2 : ∀ i, ∃ r : ℝ, x2 i = (r : EReal))
    (h3 : ∀ i, ∃ r : ℝ, x3 i = (r : EReal))
    (g1 : ∀ i, ∃ r : ℝ, w1 i = (r : EReal)) (g2 : ∀ i, ∃ r : ℝ, w2 i = (r : EReal))
    (g3 : ∀ i, ∃ r : ℝ, w3 i = (r : EReal))
    (b : Fin 2) (s : Fin 2048) (h : Fin 16) (e : Fin 64) :
    attnK x1 x2 x3 w1 w2 w3 b s h e = attnR x1 x2 x3 w1 w2 w3 b s h e := by
  choose r1 hr1 using h1
  choose r2 hr2 using h2
  choose r3 hr3 using h3
  choose s1 hs1 using g1
  choose s2 hs2 using g2
  choose s3 hs3 using g3
  obtain rfl : x1 = fun i => (r1 i : EReal) := funext hr1
  obtain rfl : x2 = fun i => (r2 i : EReal) := funext hr2
  obtain rfl : x3 = fun i => (r3 i : EReal) := funext hr3
  obtain rfl : w1 = fun i => (s1 i : EReal) := funext hs1
  obtain rfl : w2 = fun i => (s2 i : EReal) := funext hs2
  obtain rfl : w3 = fun i => (s3 i : EReal) := funext hs3
  unfold attnK attnR
  simp only [proj_coe]
  rw [ereal_assoc]

end Cert.Spec

end
-- ==== Proof.Finite.lean ====
/-
  The precondition read back: every entry of the six argument arrays is a real number.

  The precondition is the conjunction, over the six arrays, of "every entry x has |x| < +∞". In the extended reals
  |x| is max x (−x), and the pattern 0x7F800000 denotes ⊤; max x (−x) < ⊤ fails at both infinities (one of x, −x is
  ⊤ there) and holds at every real, so it says exactly that x is real.
-/
import proofs.«182103_j40724879900854_1_alg».proof.Defs
import Idealize.ShloMosaic.Lib.ReduceAll
import Idealize.ShloMosaic.Lib.IdealHost
import Idealize.ShloMosaic.Lib.ValueIdx

noncomputable section

namespace Cert.KernelIdeal.Finite

open Idealize.ShloMosaic Idealize.ShloMosaic.ValueIdx Idealize.ShloMosaic.TcCoe Idealize.SL.Sem
open Cert.Pre_finite_inputs

/-- The f32 pattern of +∞ is the extended real ⊤. -/
theorem ofBits_inf : Ideal.ofBits .f32 0x7F800000#32 = ⊤ := by simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [ofBits_inf] at h
  unfold Ideal.cmp at h
  induction x using EReal.rec with
  | bot => simp at h
  | coe r => exact ⟨r, rfl⟩
  | top => simp at h

/-- The rank-0 shape has one index. -/
instance : Subsingleton S_.Idx := ⟨fun a b => funext fun d => d.elim0⟩

/-- One conjunct of the precondition: `all(|x| < +∞)` being true makes every entry of `x` real. -/
theorem real_of_all {S : Shape} {axes : List (Fin S.rank)} (x : FVec Ideal S .f32)
    (bc : S_.BroadcastsInDim S (![] : Fin 0 → Fin S.rank)) (hr : S.ReducesTo axes S_) (hS : 0 < S_.numel)
    (e : Host.reduce IntOp.andi
          (cmpf .olt (Host.absf x) (broadcastInDim S ![] bc (constant (F := Ideal) S_ .f32 0x7F800000#32)))
          (constantI S_ 1 1#1) hr hS ix0 = 1#1)
    (i : S.Idx) : ∃ r : ℝ, x i = (r : EReal) := by
  have hi := Host.reduce_andi_all _ _ hr hS ix0 e i
  rw [cmpf_apply, broadcastInDim_scalar_apply, constant_apply] at hi
  exact real_of_abs_lt (x i) hi

/-- The vector `and` at an index is the words' `and`. -/
theorem andi_apply {s : Shape} {w : Nat} (a b : IVec s w) (i : s.Idx) : andi a b i = IntOp.andi (a i) (b i) := rfl

/-- The precondition over six arrays: all their entries are real. -/
theorem real_of_fn [Cert.Pre_finite_inputs.Facts] (a0 a1 a2 : FVec Ideal S2x2048x1024 .f32) (a3 a4 a5 : FVec Ideal S1024x1024 .f32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ix0
  unfold fn fn_part1 at h0
  dsimp only at h0
  simp only [andi_apply, IntOp.andi_eq_one] at h0
  obtain ⟨⟨⟨⟨⟨e0, e1⟩, e2⟩, e3⟩, e4⟩, e5⟩ := h0
  exact ⟨real_of_all a0 _ _ _ e0, real_of_all a1 _ _ _ e1, real_of_all a2 _ _ _ e2,
    real_of_all a3 _ _ _ e3, real_of_all a4 _ _ _ e4, real_of_all a5 _ _ _ e5⟩

/-- Under the precondition every entry of every argument buffer, on every device, is a real number. -/
theorem real_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread Cert.KernelIdeal.nD Cert.KernelIdeal.τ).loc Cert.KernelIdeal.main_arg0) : FVec Ideal S2x2048x1024 .f32) i = (r : EReal))
      ∧ (∀ i, ∃ r : ℝ, (m ((c.tc : Thread Cert.KernelIdeal.nD Cert.KernelIdeal.τ).loc Cert.KernelIdeal.main_arg1) : FVec Ideal S2x2048x1024 .f32) i = (r : EReal))
      ∧ (∀ i, ∃ r : ℝ, (m ((c.tc : Thread Cert.KernelIdeal.nD Cert.KernelIdeal.τ).loc Cert.KernelIdeal.main_arg2) : FVec Ideal S2x2048x1024 .f32) i = (r : EReal))
      ∧ (∀ i, ∃ r : ℝ, (m ((c.tc : Thread Cert.KernelIdeal.nD Cert.KernelIdeal.τ).loc Cert.KernelIdeal.main_arg3) : FVec Ideal S1024x1024 .f32) i = (r : EReal))
      ∧ (∀ i, ∃ r : ℝ, (m ((c.tc : Thread Cert.KernelIdeal.nD Cert.KernelIdeal.τ).loc Cert.KernelIdeal.main_arg4) : FVec Ideal S1024x1024 .f32) i = (r : EReal))
      ∧ (∀ i, ∃ r : ℝ, (m ((c.tc : Thread Cert.KernelIdeal.nD Cert.KernelIdeal.τ).loc Cert.KernelIdeal.main_arg5) : FVec Ideal S1024x1024 .f32) i = (r : EReal)) :=
  real_of_fn _ _ _ _ _ _ (hpre c)

end Cert.KernelIdeal.Finite

end
-- ==== Proof.RefValue.lean ====
/-
  The reference program's result, read index by index, is the layout of `Cert.Spec.attnR` over the six argument arrays.

  The program projects each input (y = x · wᵀ), reads the 1024 columns of a projection as 16 heads of 64 lanes
  (reshape [2, 2048, 1024] → [2, 2048, 16, 64], column n ↦ (n / 64, n % 64)), moves the head axis in front of the row
  axis, forms the scores Q · Kᵀ per batch and head, multiplies them by V, undoes the two layout steps and adds the
  first input. Read at an entry, every layout step is a renaming of coordinates, so the result at (b, s, n) is
      Σ_t (Σ_d Q[s, d] · K[t, d]) · V[t, n % 64] + x₁[b, s, n]        at head n / 64.
-/
import proofs.«182103_j40724879900854_1_alg».proof.Proof.Gen.ReferenceIdeal.Read
import proofs.«182103_j40724879900854_1_alg».proof.Proof.Spec

noncomputable section

namespace Cert.ReferenceIdeal.RefValue

open Cert.ReferenceIdeal Cert.ReferenceIdeal.Read Cert.Spec
open Idealize.ShloMosaic Idealize.ShloMosaic.ValueIdx
open scoped BigOperators

/-! ## The layout steps as renamings of coordinates -/

/-- Entry (b, h, s, d) of a head-split projection reads the input's row (b, s) … -/
theorem lidx_proj (b : Fin 2) (h : Fin 16) (s : Fin 2048) (d : Fin 64) (k : Fin 1024) :
    lidx_main_v0 (idx_main_v3 (idx_main_v4 (ix4 b h s d))) k = ix3 b s k := by
  have hb := b.isLt; have hh := h.isLt; have hs := s.isLt; have hd := d.isLt
  funext a
  match a with
  | ⟨0, _⟩ => exact Fin.ext (by
      show (((b.val * 2048 + s.val) * 16 + h.val) * 64 + d.val) / 2097152 = b.val; omega)
  | ⟨1, _⟩ => exact Fin.ext (by
      show (((b.val * 2048 + s.val) * 16 + h.val) * 64 + d.val) / 1024 % 2048 = s.val; omega)
  | ⟨2, _⟩ => rfl

/-- … against the weight's row h · 64 + d. -/
theorem ridx_proj (b : Fin 2) (h : Fin 16) (s : Fin 2048) (d : Fin 64) (k : Fin 1024) :
    ridx_main_v0 (idx_main_v3 (idx_main_v4 (ix4 b h s d))) k = ix2 (col h d) k := by
  have hb := b.isLt; have hh := h.isLt; have hs := s.isLt; have hd := d.isLt
  funext a
  match a with
  | ⟨0, _⟩ => exact Fin.ext (by
      show (((b.val * 2048 + s.val) * 16 + h.val) * 64 + d.val) % 1024 = h.val * 64 + d.val; omega)
  | ⟨1, _⟩ => rfl

/-- The scores' entry (b, h, s, t) contracts lane d of Q's row s … -/
theorem lidx_scores (b : Fin 2) (h : Fin 16) (s t : Fin 2048) (d : Fin 64) :
    lidx_main_v9 (ix4 b h s t) d = ix4 b h s d := by
  funext a
  match a with
  | ⟨0, _⟩ => rfl
  | ⟨1, _⟩ => rfl
  | ⟨2, _⟩ => rfl
  | ⟨3, _⟩ => rfl

/-- … with lane d of K's row t. -/
theorem ridx_scores (b : Fin 2) (h : Fin 16) (s t : Fin 2048) (d : Fin 64) :
    ridx_main_v9 (ix4 b h s t) d = ix4 b h t d := by
  funext a
  match a with
  | ⟨0, _⟩ => rfl
  | ⟨1, _⟩ => rfl
  | ⟨2, _⟩ => rfl
  | ⟨3, _⟩ => rfl

/-- The product's entry (b, h, s, e) contracts the scores' row s at column t … -/
theorem lidx_out (b : Fin 2) (h : Fin 16) (s : Fin 2048) (e : Fin 64) (t : Fin 2048) :
    lidx_main_v10 (ix4 b h s e) t = ix4 b h s t := by
  funext a
  match a with
  | ⟨0, _⟩ => rfl
  | ⟨1, _⟩ => rfl
  | ⟨2, _⟩ => rfl
  | ⟨3, _⟩ => rfl

/-- … with V's row t at lane e. -/
theorem ridx_out (b : Fin 2) (h : Fin 16) (s : Fin 2048) (e : Fin 64) (t : Fin 2048) :
    ridx_main_v10 (ix4 b h s e) t = ix4 b h t e := by
  funext a
  match a with
  | ⟨0, _⟩ => rfl
  | ⟨1, _⟩ => rfl
  | ⟨2, _⟩ => rfl
  | ⟨3, _⟩ => rfl

/-- Undoing the layout: entry (b, s, n) of the result is entry (b, n / 64, s, n % 64) of the per-head product. -/
theorem idx_back (b : Fin 2) (s : Fin 2048) (n : Fin 1024) :
    idx_main_v11 (idx_main_v12 (ix3 b s n)) = ix4 b (hd n) s (ln n) := by
  have hb := b.isLt; have hs := s.isLt; have hn := n.isLt
  funext a
  match a with
  | ⟨0, _⟩ => exact Fin.ext (by
      show ((b.val * 2048 + s.val) * 1024 + n.val) / 2097152 = b.val; omega)
  | ⟨1, _⟩ => exact Fin.ext (by
      show ((b.val * 2048 + s.val) * 1024 + n.val) / 64 % 16 = n.val / 64; omega)
  | ⟨2, _⟩ => exact Fin.ext (by
      show ((b.val * 2048 + s.val) * 1024 + n.val) / 1024 % 2048 = s.val; omega)
  | ⟨3, _⟩ => exact Fin.ext (by
      show ((b.val * 2048 + s.val) * 1024 + n.val) % 64 = n.val % 64; omega)

/-! ## The stages at an entry -/

/-- The head-split first projection at (b, h, s, d) is the projection's entry (b, s, h · 64 + d). -/
theorem q_apply (x : FVec Ideal S2x2048x1024 .f32) (w : FVec Ideal S1024x1024 .f32)
    (b : Fin 2) (h : Fin 16) (s : Fin 2048) (d : Fin 64) :
    val_main_v4 (F := Ideal) x w (ix4 b h s d) = proj x w b s (col h d) := by
  rw [val_main_v4_apply, val_main_v3_apply, val_main_v0_apply]
  unfold proj
  exact Finset.sum_congr rfl fun k _ =>
    congrArg₂ (· * ·) (congrArg x (lidx_proj b h s d k)) (congrArg w (ridx_proj b h s d k))

/-- The same for the second projection. -/
theorem k_apply (x : FVec Ideal S2x2048x1024 .f32) (w : FVec Ideal S1024x1024 .f32)
    (b : Fin 2) (h : Fin 16) (s : Fin 2048) (d : Fin 64) :
    val_main_v6 (F := Ideal) x w (ix4 b h s d) = proj x w b s (col h d) := by
  rw [val_main_v6_apply, val_main_v5_apply, val_main_v1_apply]
  unfold proj
  exact Finset.sum_congr rfl fun k _ =>
    congrArg₂ (· * ·) (congrArg x (lidx_proj b h s d k)) (congrArg w (ridx_proj b h s d k))

/-- The same for the third projection. -/
theorem v_apply (x : FVec Ideal S2x2048x1024 .f32) (w : FVec Ideal S1024x1024 .f32)
    (b : Fin 2) (h : Fin 16) (s : Fin 2048) (d : Fin 64) :
    val_main_v8 (F := Ideal) x w (ix4 b h s d) = proj x w b s (col h d) := by
  rw [val_main_v8_apply, val_main_v7_apply, val_main_v2_apply]
  unfold proj
  exact Finset.sum_congr rfl fun k _ =>
    congrArg₂ (· * ·) (congrArg x (lidx_proj b h s d k)) (congrArg w (ridx_proj b h s d k))

/-- The scores Q · Kᵀ at (b, h, s, t): the sum over the 64 lanes of the head. -/
theorem scores_apply (x1 x2 : FVec Ideal S2x2048x1024 .f32) (w1 w2 : FVec Ideal S1024x1024 .f32)
    (b : Fin 2) (h : Fin 16) (s t : Fin 2048) :
    val_main_v9 (F := Ideal) x1 x2 w1 w2 (ix4 b h s t)
      = ∑ d : Fin 64, proj x1 w1 b s (col h d) * proj x2 w2 b t (col h d) := by
  rw [val_main_v9_apply]
  refine Finset.sum_congr rfl fun d _ => ?_
  rw [lidx_scores, ridx_scores, q_apply, k_apply]

/-- (Q · Kᵀ) · V at (b, h, s, e): the sum over the 2048 rows. -/
theorem out_apply (x1 x2 x3 : FVec Ideal S2x2048x1024 .f32) (w1 w2 w3 : FVec Ideal S1024x1024 .f32)
    (b : Fin 2) (h : Fin 16) (s : Fin 2048) (e : Fin 64) :
    val_main_v10 (F := Ideal) x1 x2 x3 w1 w2 w3 (ix4 b h s e)
      = ∑ t : Fin 2048, (∑ d : Fin 64, proj x1 w1 b s (col h d) * proj x2 w2 b t (col h d))
          * proj x3 w3 b t (col h e) := by
  rw [val_main_v10_apply]
  refine Finset.sum_congr rfl fun t _ => ?_
  rw [lidx_out, ridx_out, scores_apply, v_apply]

/-! ## The result -/

/-- The reference's result is `attnR` laid out as the [2, 2048, 1024] array. -/
theorem ref_eq (x1 x2 x3 : FVec Ideal S2x2048x1024 .f32) (w1 w2 w3 : FVec Ideal S1024x1024 .f32) :
    val_main_v13 (F := Ideal) x1 x2 x3 w1 w2 w3 = lay (attnR x1 x2 x3 w1 w2 w3) := by
  funext i
  obtain ⟨b, s, n, rfl⟩ : ∃ (b : Fin 2) (s : Fin 2048) (n : Fin 1024), i = ix3 b s n :=
    ⟨i 0, i 1, i 2, eq_ix3 i⟩
  rw [val_main_v13_apply, val_main_v12_apply, val_main_v11_apply, idx_back, out_apply, Ideal.addf_def]
  show _ = attnR x1 x2 x3 w1 w2 w3 b s (hd n) (ln n)
  unfold attnR
  rw [col_hd_ln]

end Cert.ReferenceIdeal.RefValue

end
-- ==== Proof.Algebraic.lean ====
/-
  The value claim: at the ideal instance, from memories that agree on the six arguments, both programs end with the
  same result array, the arguments unchanged.

  The kernel program's result buffer, read through the fold of @main, is `Q · (Kᵀ · V) + x₁` per batch and head
  (`Spec.attnK`): the projection region leaves the three projections stacked, the second host stretch lays each out by
  heads, the attention region multiplies them in the kernel's bracketing and adds the first input, and the last stretch
  puts the heads back side by side. The reference's result is `(Q · Kᵀ) · V + x₁` (`Spec.attnR`). Under the
  precondition every input entry is a real number, so every projection entry is one too, and the two bracketings of the
  triple product agree entry by entry.
-/
import proofs.«182103_j40724879900854_1_alg».proof.Defs
import proofs.«182103_j40724879900854_1_alg».proof.Proof.KIRun
import proofs.«182103_j40724879900854_1_alg».proof.Proof.KIArgs
import proofs.«182103_j40724879900854_1_alg».proof.Proof.KVMid
import proofs.«182103_j40724879900854_1_alg».proof.Proof.KVProj
import proofs.«182103_j40724879900854_1_alg».proof.Proof.KVTop
import proofs.«182103_j40724879900854_1_alg».proof.Proof.SpecLaw
import proofs.«182103_j40724879900854_1_alg».proof.Proof.Finite
import proofs.«182103_j40724879900854_1_alg».proof.Proof.RefValue
import proofs.«182103_j40724879900854_1_alg».proof.Proof.Gen.ReferenceIdeal.Read
import proofs.«182103_j40724879900854_1_alg».proof.Proof.Gen.KernelIdeal
import proofs.«182103_j40724879900854_1_alg».proof.Proof.Gen.ReferenceIdeal
import proofs.«182103_j40724879900854_1_alg».proof.Proof.Gen.Pre_finite_inputs

noncomputable section

namespace Cert.Proof.Value

open Idealize.ShloMosaic Idealize.ShloMosaic.TcCoe Idealize.ShloMosaic.ValueIdx Idealize.SL.Sem
open Cert.KernelIdeal Cert.KernelIdeal.Gen Cert.KernelIdeal.Hand

attribute [local instance] Cert.KernelIdeal.Gen.facts Cert.ReferenceIdeal.Gen.facts Cert.Pre_finite_inputs.Gen.facts

/-- The kernel program's result buffer at the end of @main is the kernel-bracketed specification of the launch
    memory's six argument arrays. -/
theorem kernel_value (m : (ℓ : Loc nD τ sig) → Buf (Elt Ideal) ℓ) (c : Dev nD) :
    (W5 (F := Ideal) m c (Proc.devRef .tc main_v28) : Cert.Spec.SX.Idx → EReal)
      = Cert.Spec.lay (Cert.Spec.attnK (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))) := by
  -- the three projections, as the stack's members
  let P : Fin 3 → Fin 2 → Fin 2048 → Fin 1024 → EReal := fun p => match p with
    | ⟨0, _⟩ => Cert.Spec.proj (m ((c : Thread nD τ).loc main_arg0)) (m ((c : Thread nD τ).loc main_arg3))
    | ⟨1, _⟩ => Cert.Spec.proj (m ((c : Thread nD τ).loc main_arg1)) (m ((c : Thread nD τ).loc main_arg4))
    | ⟨2, _⟩ => Cert.Spec.proj (m ((c : Thread nD τ).loc main_arg2)) (m ((c : Thread nD τ).loc main_arg5))
  have hP : ∀ (p : Fin 3) (b : Fin 2) (s : Fin 2048) (n : Fin 1024),
      (W2 (F := Ideal) m c (Proc.devRef .tc main_v11) : S3x4096x1024.Idx → EReal) (ix3 p (Cert.KernelIdeal.HandMid.row b s) n) = P p b s n :=
    fun p b s n => match p with
      | ⟨0, _⟩ => Cert.KernelIdeal.HandValue.proj_q m c b s n
      | ⟨1, _⟩ => Cert.KernelIdeal.HandValue.proj_k m c b s n
      | ⟨2, _⟩ => Cert.KernelIdeal.HandValue.proj_v m c b s n
  have hE := fun b h s d => Cert.KernelIdeal.HandMid.entry_of_stack m c P hP b h s d
  exact Cert.KernelIdeal.HandTop.result_of_entries m c (P 0) (P 1) (P 2) (m ((c : Thread nD τ).loc main_arg0))
    (fun b h s d => (hE b h s d).1) (fun b h s d => (hE b h s d).2.1) (fun b h s d => (hE b h s d).2.2.1)
    (fun b h s d => (hE b h s d).2.2.2)

theorem algebraic : Cert.algebraic_KernelIdeal_ReferenceIdeal := by
  intro m ρ m' ρ' hpre hagree
  refine ⟨fun c => Cert.Spec.lay (Cert.Spec.attnK (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5))), ?_, ?_⟩
  · exact (θ_run (Cert.KernelIdeal.defs (F := Ideal)) _ _).mono (fun r h c =>
      ⟨(h c _ (mem_uc main_v28 (by decide))).trans (kernel_value m c),
       (h c _ (mem_uc main_arg0 (by decide))).trans (W5_main_arg0 m c),
       (h c _ (mem_uc main_arg1 (by decide))).trans (W5_main_arg1 m c),
       (h c _ (mem_uc main_arg2 (by decide))).trans (W5_main_arg2 m c),
       (h c _ (mem_uc main_arg3 (by decide))).trans (W5_main_arg3 m c),
       (h c _ (mem_uc main_arg4 (by decide))).trans (W5_main_arg4 m c),
       (h c _ (mem_uc main_arg5 (by decide))).trans (W5_main_arg5 m c)⟩)
      (run_main (F := Ideal) m ρ)
  · refine (θ_run (Cert.ReferenceIdeal.defs (F := Ideal)) _ _).mono (fun r h c => ⟨?_, (h c).2⟩)
      (Cert.ReferenceIdeal.Value.run (F := Ideal) m' ρ')
    rw [(h c).1, Cert.ReferenceIdeal.Read.val_main_v13_eq, Cert.ReferenceIdeal.RefValue.ref_eq,
      (hagree c).1, (hagree c).2.1, (hagree c).2.2.1, (hagree c).2.2.2.1, (hagree c).2.2.2.2.1, (hagree c).2.2.2.2.2]
    obtain ⟨h1, h2, h3, g1, g2, g3⟩ := Cert.KernelIdeal.Finite.real_of_pre m hpre c
    funext i
    exact (Cert.Spec.attnK_eq_attnR _ _ _ _ _ _ h1 h2 h3 g1 g2 g3 _ _ _ _).symm

end Cert.Proof.Value

end
-- ==== Proof.lean ====
/-
  A fused QKV projection followed by per-head linear attention, against its plain reference.

  The kernel program projects the three inputs by the three weight matrices in one gridded region (y = x · wᵀ, a
  512-row tile at a time), splits the 1024 columns into 16 heads of 64 lanes, and per batch and head computes
  Q · (Kᵀ · V) + x₁ in a second region; the reference computes (Q · Kᵀ) · V + x₁ with einsums. There is no softmax and
  no scaling between the two products, so the two are the same triple product bracketed two ways, and over the extended
  reals they agree wherever every entry is a real number — which the precondition (every input finite) provides.

  The five conjuncts: the three programs' frames (`Frames.lean`: the kernel program's run through its two regions and
  three host stretches, at the word-level instance and at the ideal one, read at the argument buffers; the reference's
  run with the result dropped); the idealization rewrote no operation, so its conjunct is `True`; and the value claim
  (`Algebraic.lean`).
-/
import proofs.«182103_j40724879900854_1_alg».proof.Defs
import proofs.«182103_j40724879900854_1_alg».proof.Proof.Gen.Kernel
import proofs.«182103_j40724879900854_1_alg».proof.Proof.Gen.KernelIdeal
import proofs.«182103_j40724879900854_1_alg».proof.Proof.Gen.ReferenceIdeal
import proofs.«182103_j40724879900854_1_alg».proof.Proof.Gen.Pre_finite_inputs
import proofs.«182103_j40724879900854_1_alg».proof.Proof.Frames
import proofs.«182103_j40724879900854_1_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_ri, trivial, Cert.Proof.Value.algebraic⟩

end Cert.Proof

end
